-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S10x10 : Shape := ⟨2, ![10, 10]⟩
abbrev S10 : Shape := ⟨1, ![10]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_

variable [Facts]

def fn {F : FTy → Type} [FloatOps F] (main_arg0 : FVec F S1048576x10 .f32) (main_arg1 : FVec F S10x10 .f32) (main_arg2 : FVec F S10 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S1048576x10 : Shape := ⟨2, ![1048576, 10]⟩
abbrev S10x10 : Shape := ⟨2, ![10, 10]⟩
abbrev S10 : Shape := ⟨1, ![10]⟩
abbrev S8192x1280 : Shape := ⟨2, ![8192, 1280]⟩
abbrev S10x1x1 : Shape := ⟨3, ![10, 1, 1]⟩
abbrev S384 : Shape := ⟨1, ![384]⟩
abbrev S1x384x1 : Shape := ⟨3, ![1, 384, 1]⟩
abbrev S10x384x1 : Shape := ⟨3, ![10, 384, 1]⟩
abbrev S_ : Shape := ⟨0, ![]⟩
abbrev S128 : Shape := ⟨1, ![128]⟩
abbrev S1x1x128 : Shape := ⟨3, ![1, 1, 128]⟩
abbrev S10x1x128 : Shape := ⟨3, ![10, 1, 128]⟩
abbrev S10x384x128 : Shape := ⟨3, ![10, 384, 128]⟩
abbrev S10x384x128x1 : Shape := ⟨4, ![10, 384, 128, 1]⟩
abbrev S10x384x128x2 : Shape := ⟨4, ![10, 384, 128, 2]⟩
abbrev S1x10 : Shape := ⟨2, ![1, 10]⟩
abbrev S128x10 : Shape := ⟨2, ![128, 10]⟩
abbrev S1280 : Shape := ⟨1, ![1280]⟩
abbrev S1x1280 : Shape := ⟨2, ![1, 1280]⟩
abbrev S16x655360 : Shape := ⟨2, ![16, 655360]⟩
abbrev S256x1280 : Shape := ⟨2, ![256, 1280]⟩
abbrev S256x384 : Shape := ⟨2, ![256, 384]⟩
abbrev S1x384x128 : Shape := ⟨3, ![1, 384, 128]⟩
abbrev S384x128 : Shape := ⟨2, ![384, 128]⟩
abbrev S256x128 : Shape := ⟨2, ![256, 128]⟩
abbrev S1x128 : Shape := ⟨2, ![1, 128]⟩

abbrev nBuf : Space → Nat
  | .hbm => 134
  | .vmem => 6
  | .smem => 0
  | _ => 0

abbrev hbmTy0_0 (i : Nat) : BufTy := match i % 128 with
  | 0 => ⟨S1048576x10, .f32⟩
  | 1 => ⟨S10x10, .f32⟩
  | 2 => ⟨S10, .f32⟩
  | 3 => ⟨S10, .i32⟩
  | 4 => ⟨S8192x1280, .f32⟩
  | 5 => ⟨S10x1x1, .i32⟩
  | 6 => ⟨S384, .i32⟩
  | 7 => ⟨S1x384x1, .i32⟩
  | 8 => ⟨S10x384x1, .i32⟩
  | 9 => ⟨S10x384x1, .i32⟩
  | 10 => ⟨S10x384x1, .i32⟩
  | 11 => ⟨S10, .i32⟩
  | 12 => ⟨S_, .i32⟩
  | 13 => ⟨S10, .i32⟩
  | 14 => ⟨S10, .i32⟩
  | 15 => ⟨S10x1x1, .i32⟩
  | 16 => ⟨S128, .i32⟩
  | 17 => ⟨S1x1x128, .i32⟩
  | 18 => ⟨S10x1x128, .i32⟩
  | 19 => ⟨S10x1x128, .i32⟩
  | 20 => ⟨S10x1x128, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S10x1x128, .i32⟩
  | 28 => ⟨S10x1x128, .i32⟩
  | 29 => ⟨S_, .i32⟩
  | 30 => ⟨S10x1x128, .i32⟩
  | 31 => ⟨S10x1x128, .i1⟩
  | 32 => ⟨S_, .i32⟩
  | 33 => ⟨S10x1x128, .i32⟩
  | 34 => ⟨S10x1x128, .i1⟩
  | 35 => ⟨S_, .i32⟩
  | 36 => ⟨S_, .i1⟩
  | 37 => ⟨S10x1x128, .i1⟩
  | 38 => ⟨S10x1x128, .i1⟩
  | 39 => ⟨S10x1x128, .i1⟩
  | 40 => ⟨S10x1x128, .i32⟩
  | 41 => ⟨S10x1x128, .i32⟩
  | 42 => ⟨S10x1x128, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S10x384x1, .i32⟩
  | 50 => ⟨S10x384x1, .i32⟩
  | 51 => ⟨S_, .i32⟩
  | 52 => ⟨S10x384x1, .i32⟩
  | 53 => ⟨S10x384x1, .i1⟩
  | 54 => ⟨S_, .i32⟩
  | 55 => ⟨S10x384x1, .i32⟩
  | 56 => ⟨S10x384x1, .i1⟩
  | 57 => ⟨S_, .i32⟩
  | 58 => ⟨S_, .i1⟩
  | 59 => ⟨S10x384x1, .i1⟩
  | 60 => ⟨S10x384x1, .i1⟩
  | 61 => ⟨S10x384x1, .i1⟩
  | 62 => ⟨S10x384x1, .i32⟩
  | 63 => ⟨S10x384x1, .i32⟩
  | 64 => ⟨S10x384x1, .i32⟩
  | 65 => ⟨S_, .i32⟩
  | 66 => ⟨S10x1x128, .i32⟩
  | 67 => ⟨S10x1x128, .i1⟩
  | 68 => ⟨S_, .i32⟩
  | 69 => ⟨S10x1x128, .i32⟩
  | 70 => ⟨S10x1x128, .i32⟩
  | 71 => ⟨S10x1x128, .i32⟩
  | 72 => ⟨S_, .i32⟩
  | 73 => ⟨S10x384x1, .i32⟩
  | 74 => ⟨S10x384x1, .i1⟩
  | 75 => ⟨S_, .i32⟩
  | 76 => ⟨S10x384x1, .i32⟩
  | 77 => ⟨S10x384x1, .i32⟩
  | 78 => ⟨S10x384x1, .i32⟩
  | 79 => ⟨S10x384x128, .i32⟩
  | 80 => ⟨S10x384x128, .i32⟩
  | 81 => ⟨S10x384x128x1, .i32⟩
  | 82 => ⟨S10x384x128x1, .i32⟩
  | 83 => ⟨S10x384x128x2, .i32⟩
  | 84 => ⟨S10x384x128, .f32⟩
  | 85 => ⟨S_, .i32⟩
  | 86 => ⟨S_, .i32⟩
  | 87 => ⟨S10x384x1, .i32⟩
  | 88 => ⟨S10x384x1, .i32⟩
  | 89 => ⟨S10x384x1, .i32⟩
  | 90 => ⟨S_, .i32⟩
  | 91 => ⟨S10x384x1, .i32⟩
  | 92 => ⟨S10x384x1, .i1⟩
  | 93 => ⟨S10x384x1, .i32⟩
  | 94 => ⟨S10x384x1, .i32⟩
  | 95 => ⟨S_, .i32⟩
  | 96 => ⟨S10x384x1, .i32⟩
  | 97 => ⟨S10x384x1, .i1⟩
  | 98 => ⟨S10x384x1, .i1⟩
  | 99 => ⟨S_, .i32⟩
  | 100 => ⟨S10x384x1, .i32⟩
  | 101 => ⟨S10x384x1, .i32⟩
  | 102 => ⟨S10x384x1, .i32⟩
  | 103 => ⟨S_, .i32⟩
  | 104 => ⟨S_, .i32⟩
  | 105 => ⟨S10x1x128, .i32⟩
  | 106 => ⟨S10x1x128, .i32⟩
  | 107 => ⟨S10x1x128, .i32⟩
  | 108 => ⟨S_, .i32⟩
  | 109 => ⟨S10x1x128, .i32⟩
  | 110 => ⟨S10x1x128, .i1⟩
  | 111 => ⟨S10x1x128, .i32⟩
  | 112 => ⟨S10x1x128, .i32⟩
  | 113 => ⟨S_, .i32⟩
  | 114 => ⟨S10x1x128, .i32⟩
  | 115 => ⟨S10x1x128, .i1⟩
  | 116 => ⟨S10x1x128, .i1⟩
  | 117 => ⟨S_, .i32⟩
  | 118 => ⟨S10x1x128, .i32⟩
  | 119 => ⟨S10x1x128, .i32⟩
  | 120 => ⟨S10x1x128, .i32⟩
  | 121 => ⟨S10x384x128, .i32⟩
  | 122 => ⟨S10x384x128, .i32⟩
  | 123 => ⟨S10x384x128, .i1⟩
  | 124 => ⟨S_, .f32⟩
  | 125 => ⟨S_, .f32⟩
  | 126 => ⟨S10x384x128, .f32⟩
  | 127 => ⟨S10x384x128, .f32⟩
  | _ => ⟨S1048576x10, .f32⟩

abbrev hbmTy0_1 (i : Nat) : BufTy := match i % 128 with
  | 0 => ⟨S1x10, .f32⟩
  | 1 => ⟨S128x10, .f32⟩
  | 2 => ⟨S1280, .f32⟩
  | 3 => ⟨S1x1280, .f32⟩
  | 4 => ⟨S8192x1280, .f32⟩
  | 5 => ⟨S16x655360, .f32⟩
  | _ => ⟨S1048576x10, .f32⟩

abbrev hbmTy (i : Nat) : BufTy := match i / 128 with
  | 0 => hbmTy0_0 i
  | 1 => hbmTy0_1 i
  | _ => ⟨S1048576x10, .f32⟩

abbrev bufTy : (tb : Table) → Fin (tcTables nBuf tb) → BufTy
  | .hbm, ⟨i, _⟩ => hbmTy i
  | .local _ .vmem, ⟨0, _⟩ => ⟨S256x1280, .f32⟩
  | .local _ .vmem, ⟨1, _⟩ => ⟨S256x1280, .f32⟩
  | .local _ .vmem, ⟨2, _⟩ => ⟨S10x384x128, .f32⟩
  | .local _ .vmem, ⟨3, _⟩ => ⟨S1x1280, .f32⟩
  | .local _ .vmem, ⟨4, _⟩ => ⟨S256x1280, .f32⟩
  | .local _ .vmem, ⟨5, _⟩ => ⟨S256x1280, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_c_0 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_c_1 : Ref sig .tc := ⟨.hbm, 21, rfl⟩
abbrev main_call0_call0_v0 : Ref sig .tc := ⟨.hbm, 22, rfl⟩
abbrev main_call0_call0_c : Ref sig .tc := ⟨.hbm, 23, rfl⟩
abbrev main_call0_call0_v1 : Ref sig .tc := ⟨.hbm, 24, rfl⟩
abbrev main_call0_call0_c_0 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_c_1 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_2 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_3 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_v16 : Ref sig .tc := ⟨.hbm, 42, rfl⟩
abbrev main_call0_c_2 : Ref sig .tc := ⟨.hbm, 43, rfl⟩
abbrev main_call0_call1_v0 : Ref sig .tc := ⟨.hbm, 44, rfl⟩
abbrev main_call0_call1_c : Ref sig .tc := ⟨.hbm, 45, rfl⟩
abbrev main_call0_call1_v1 : Ref sig .tc := ⟨.hbm, 46, rfl⟩
abbrev main_call0_call1_c_0 : Ref sig .tc := ⟨.hbm, 47, rfl⟩
abbrev main_call0_call1_v2 : Ref sig .tc := ⟨.hbm, 48, rfl⟩
abbrev main_call0_call1_v3 : Ref sig .tc := ⟨.hbm, 49, rfl⟩
abbrev main_call0_call1_v4 : Ref sig .tc := ⟨.hbm, 50, rfl⟩
abbrev main_call0_call1_c_1 : Ref sig .tc := ⟨.hbm, 51, rfl⟩
abbrev main_call0_call1_v5 : Ref sig .tc := ⟨.hbm, 52, rfl⟩
abbrev main_call0_call1_v6 : Ref sig .tc := ⟨.hbm, 53, rfl⟩
abbrev main_call0_call1_c_2 : Ref sig .tc := ⟨.hbm, 54, rfl⟩
abbrev main_call0_call1_v7 : Ref sig .tc := ⟨.hbm, 55, rfl⟩
abbrev main_call0_call1_v8 : Ref sig .tc := ⟨.hbm, 56, rfl⟩
abbrev main_call0_call1_c_3 : Ref sig .tc := ⟨.hbm, 57, rfl⟩
abbrev main_call0_call1_v9 : Ref sig .tc := ⟨.hbm, 58, rfl⟩
abbrev main_call0_call1_v10 : Ref sig .tc := ⟨.hbm, 59, rfl⟩
abbrev main_call0_call1_v11 : Ref sig .tc := ⟨.hbm, 60, rfl⟩
abbrev main_call0_call1_v12 : Ref sig .tc := ⟨.hbm, 61, rfl⟩
abbrev main_call0_call1_v13 : Ref sig .tc := ⟨.hbm, 62, rfl⟩
abbrev main_call0_call1_v14 : Ref sig .tc := ⟨.hbm, 63, rfl⟩
abbrev main_call0_v17 : Ref sig .tc := ⟨.hbm, 64, rfl⟩
abbrev main_call0_c_3 : Ref sig .tc := ⟨.hbm, 65, rfl⟩
abbrev main_call0_v18 : Ref sig .tc := ⟨.hbm, 66, rfl⟩
abbrev main_call0_v19 : Ref sig .tc := ⟨.hbm, 67, rfl⟩
abbrev main_call0_c_4 : Ref sig .tc := ⟨.hbm, 68, rfl⟩
abbrev main_call0_v20 : Ref sig .tc := ⟨.hbm, 69, rfl⟩
abbrev main_call0_v21 : Ref sig .tc := ⟨.hbm, 70, rfl⟩
abbrev main_call0_v22 : Ref sig .tc := ⟨.hbm, 71, rfl⟩
abbrev main_call0_c_5 : Ref sig .tc := ⟨.hbm, 72, rfl⟩
abbrev main_call0_v23 : Ref sig .tc := ⟨.hbm, 73, rfl⟩
abbrev main_call0_v24 : Ref sig .tc := ⟨.hbm, 74, rfl⟩
abbrev main_call0_c_6 : Ref sig .tc := ⟨.hbm, 75, rfl⟩
abbrev main_call0_v25 : Ref sig .tc := ⟨.hbm, 76, rfl⟩
abbrev main_call0_v26 : Ref sig .tc := ⟨.hbm, 77, rfl⟩
abbrev main_call0_v27 : Ref sig .tc := ⟨.hbm, 78, rfl⟩
abbrev main_call0_v28 : Ref sig .tc := ⟨.hbm, 79, rfl⟩
abbrev main_call0_v29 : Ref sig .tc := ⟨.hbm, 80, rfl⟩
abbrev main_call0_v30 : Ref sig .tc := ⟨.hbm, 81, rfl⟩
abbrev main_call0_v31 : Ref sig .tc := ⟨.hbm, 82, rfl⟩
abbrev main_call0_v32 : Ref sig .tc := ⟨.hbm, 83, rfl⟩
abbrev main_call0_v33 : Ref sig .tc := ⟨.hbm, 84, rfl⟩
abbrev main_call0_c_7 : Ref sig .tc := ⟨.hbm, 85, rfl⟩
abbrev main_call0_call2_v0 : Ref sig .tc := ⟨.hbm, 86, rfl⟩
abbrev main_call0_call2_v1 : Ref sig .tc := ⟨.hbm, 87, rfl⟩
abbrev main_call0_call2_v2 : Ref sig .tc := ⟨.hbm, 88, rfl⟩
abbrev main_call0_call2_v3 : Ref sig .tc := ⟨.hbm, 89, rfl⟩
abbrev main_call0_call2_v4 : Ref sig .tc := ⟨.hbm, 90, rfl⟩
abbrev main_call0_call2_v5 : Ref sig .tc := ⟨.hbm, 91, rfl⟩
abbrev main_call0_call2_v6 : Ref sig .tc := ⟨.hbm, 92, rfl⟩
abbrev main_call0_call2_v7 : Ref sig .tc := ⟨.hbm, 93, rfl⟩
abbrev main_call0_call2_v8 : Ref sig .tc := ⟨.hbm, 94, rfl⟩
abbrev main_call0_call2_c : Ref sig .tc := ⟨.hbm, 95, rfl⟩
abbrev main_call0_call2_v9 : Ref sig .tc := ⟨.hbm, 96, rfl⟩
abbrev main_call0_call2_v10 : Ref sig .tc := ⟨.hbm, 97, rfl⟩
abbrev main_call0_call2_v11 : Ref sig .tc := ⟨.hbm, 98, rfl⟩
abbrev main_call0_call2_c_0 : Ref sig .tc := ⟨.hbm, 99, rfl⟩
abbrev main_call0_call2_v12 : Ref sig .tc := ⟨.hbm, 100, rfl⟩
abbrev main_call0_call2_v13 : Ref sig .tc := ⟨.hbm, 101, rfl⟩
abbrev main_call0_v34 : Ref sig .tc := ⟨.hbm, 102, rfl⟩
abbrev main_call0_c_8 : Ref sig .tc := ⟨.hbm, 103, rfl⟩
abbrev main_call0_call3_v0 : Ref sig .tc := ⟨.hbm, 104, rfl⟩
abbrev main_call0_call3_v1 : Ref sig .tc := ⟨.hbm, 105, rfl⟩
abbrev main_call0_call3_v2 : Ref sig .tc := ⟨.hbm, 106, rfl⟩
abbrev main_call0_call3_v3 : Ref sig .tc := ⟨.hbm, 107, rfl⟩
abbrev main_call0_call3_v4 : Ref sig .tc := ⟨.hbm, 108, rfl⟩
abbrev main_call0_call3_v5 : Ref sig .tc := ⟨.hbm, 109, rfl⟩
abbrev main_call0_call3_v6 : Ref sig .tc := ⟨.hbm, 110, rfl⟩
abbrev main_call0_call3_v7 : Ref sig .tc := ⟨.hbm, 111, rfl⟩
abbrev main_call0_call3_v8 : Ref sig .tc := ⟨.hbm, 112, rfl⟩
abbrev main_call0_call3_c : Ref sig .tc := ⟨.hbm, 113, rfl⟩
abbrev main_call0_call3_v9 : Ref sig .tc := ⟨.hbm, 114, rfl⟩
abbrev main_call0_call3_v10 : Ref sig .tc := ⟨.hbm, 115, rfl⟩
abbrev main_call0_call3_v11 : Ref sig .tc := ⟨.hbm, 116, rfl⟩
abbrev main_call0_call3_c_0 : Ref sig .tc := ⟨.hbm, 117, rfl⟩
abbrev main_call0_call3_v12 : Ref sig .tc := ⟨.hbm, 118, rfl⟩
abbrev main_call0_call3_v13 : Ref sig .tc := ⟨.hbm, 119, rfl⟩
abbrev main_call0_v35 : Ref sig .tc := ⟨.hbm, 120, rfl⟩
abbrev main_call0_v36 : Ref sig .tc := ⟨.hbm, 121, rfl⟩
abbrev main_call0_v37 : Ref sig .tc := ⟨.hbm, 122, rfl⟩
abbrev main_call0_v38 : Ref sig .tc := ⟨.hbm, 123, rfl⟩
abbrev main_call0_cst : Ref sig .tc := ⟨.hbm, 124, rfl⟩
abbrev main_call0_call4_v0 : Ref sig .tc := ⟨.hbm, 125, rfl⟩
abbrev main_call0_call4_v1 : Ref sig .tc := ⟨.hbm, 126, rfl⟩
abbrev main_call0_v39 : Ref sig .tc := ⟨.hbm, 127, rfl⟩
abbrev main_call0_v40 : Ref sig .tc := ⟨.hbm, 128, rfl⟩
abbrev main_call0_v41 : Ref sig .tc := ⟨.hbm, 129, rfl⟩
abbrev main_call0_v42 : Ref sig .tc := ⟨.hbm, 130, rfl⟩
abbrev main_call0_v43 : Ref sig .tc := ⟨.hbm, 131, rfl⟩
abbrev main_call0_v44 : Ref sig .tc := ⟨.hbm, 132, rfl⟩
abbrev main_v0 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1048576x10_S8192x1280 : S1048576x10.ShapeCasts S8192x1280
  bcast_S10_S10x1x1_0 : S10.BroadcastsInDim S10x1x1 (![0] : Fin 1 → Fin S10x1x1.rank)
  bcast_S384_S1x384x1_1 : S384.BroadcastsInDim S1x384x1 (![1] : Fin 1 → Fin S1x384x1.rank)
  bcast_S10x1x1_S10x384x1_0_1_2 : S10x1x1.BroadcastsInDim S10x384x1 (![0, 1, 2] : Fin 3 → Fin S10x384x1.rank)
  bcast_S1x384x1_S10x384x1_0_1_2 : S1x384x1.BroadcastsInDim S10x384x1 (![0, 1, 2] : Fin 3 → Fin S10x384x1.rank)
  bcast_S_S10 : S_.BroadcastsInDim S10 (![] : Fin 0 → Fin S10.rank)
  bcast_S128_S1x1x128_2 : S128.BroadcastsInDim S1x1x128 (![2] : Fin 1 → Fin S1x1x128.rank)
  bcast_S10x1x1_S10x1x128_0_1_2 : S10x1x1.BroadcastsInDim S10x1x128 (![0, 1, 2] : Fin 3 → Fin S10x1x128.rank)
  bcast_S1x1x128_S10x1x128_0_1_2 : S1x1x128.BroadcastsInDim S10x1x128 (![0, 1, 2] : Fin 3 → Fin S10x1x128.rank)
  bcast_S_S10x1x128 : S_.BroadcastsInDim S10x1x128 (![] : Fin 0 → Fin S10x1x128.rank)
  bcast_S_S10x384x1 : S_.BroadcastsInDim S10x384x1 (![] : Fin 0 → Fin S10x384x1.rank)
  bcast_S10x1x128_S10x384x128_0_1_2 : S10x1x128.BroadcastsInDim S10x384x128 (![0, 1, 2] : Fin 3 → Fin S10x384x128.rank)
  bcast_S10x384x1_S10x384x128_0_1_2 : S10x384x1.BroadcastsInDim S10x384x128 (![0, 1, 2] : Fin 3 → Fin S10x384x128.rank)
  bcast_S10x384x128_S10x384x128x1_0_1_2 : S10x384x128.BroadcastsInDim S10x384x128x1 (![0, 1, 2] : Fin 3 → Fin S10x384x128x1.rank)
  concatenates_S10x384x128x1_S10x384x128x1_S10x384x128x2_d3 : Shape.Concatenates [S10x384x128x1, S10x384x128x1] S10x384x128x2 3
  bcast_S_S10x384x128 : S_.BroadcastsInDim S10x384x128 (![] : Fin 0 → Fin S10x384x128.rank)
  shapeCasts_S10_S1x10 : S10.ShapeCasts S1x10
  bcast_S1x10_S128x10_0_1 : S1x10.BroadcastsInDim S128x10 (![0, 1] : Fin 2 → Fin S128x10.rank)
  shapeCasts_S128x10_S1280 : S128x10.ShapeCasts S1280
  shapeCasts_S1280_S1x1280 : S1280.ShapeCasts S1x1280
  shapeCasts_S8192x1280_S16x655360 : S8192x1280.ShapeCasts S16x655360
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  slices_S256x1280_o0_0_S256x384 : S256x1280.Slices ![0, 0] S256x384
  inb_S10x384x128_S1x384x128_0_0_0 : ∀ a, (![0, 0, 0] : Fin 3 → Nat) a + S1x384x128.size a ≤ S10x384x128.size a
  h_S1x384x128 : 0 < S1x384x128.numel
  shapeCasts_S1x384x128_S384x128 : S1x384x128.ShapeCasts S384x128
  inb_S1x1280_S1x128_0_0 : ∀ a, (![0, 0] : Fin 2 → Nat) a + S1x128.size a ≤ S1x1280.size a
  h_S1x128 : 0 < S1x128.numel
  shapeCasts_S1x128_S1x128 : S1x128.ShapeCasts S1x128
  broadcasts_S1x128_S256x128 : S1x128.Broadcasts S256x128
  inb_S256x1280_S256x128_0_0 : ∀ a, (![0, 0] : Fin 2 → Nat) a + S256x128.size a ≤ S256x1280.size a
  h_S256x128 : 0 < S256x128.numel
  inb_S10x384x128_S1x384x128_1_0_0 : ∀ a, (![1, 0, 0] : Fin 3 → Nat) a + S1x384x128.size a ≤ S10x384x128.size a
  inb_S1x1280_S1x128_0_128 : ∀ a, (![0, 128] : Fin 2 → Nat) a + S1x128.size a ≤ S1x1280.size a
  inb_S256x1280_S256x128_0_128 : ∀ a, (![0, 128] : Fin 2 → Nat) a + S256x128.size a ≤ S256x1280.size a
  slices_S256x1280_o0_128_S256x384 : S256x1280.Slices ![0, 128] S256x384
  inb_S10x384x128_S1x384x128_2_0_0 : ∀ a, (![2, 0, 0] : Fin 3 → Nat) a + S1x384x128.size a ≤ S10x384x128.size a
  inb_S1x1280_S1x128_0_256 : ∀ a, (![0, 256] : Fin 2 → Nat) a + S1x128.size a ≤ S1x1280.size a
  inb_S256x1280_S256x128_0_256 : ∀ a, (![0, 256] : Fin 2 → Nat) a + S256x128.size a ≤ S256x1280.size a
  slices_S256x1280_o0_256_S256x384 : S256x1280.Slices ![0, 256] S256x384
  inb_S10x384x128_S1x384x128_3_0_0 : ∀ a, (![3, 0, 0] : Fin 3 → Nat) a + S1x384x128.size a ≤ S10x384x128.size a
  inb_S1x1280_S1x128_0_384 : ∀ a, (![0, 384] : Fin 2 → Nat) a + S1x128.size a ≤ S1x1280.size a
  inb_S256x1280_S256x128_0_384 : ∀ a, (![0, 384] : Fin 2 → Nat) a + S256x128.size a ≤ S256x1280.size a
  slices_S256x1280_o0_384_S256x384 : S256x1280.Slices ![0, 384] S256x384
  inb_S10x384x128_S1x384x128_4_0_0 : ∀ a, (![4, 0, 0] : Fin 3 → Nat) a + S1x384x128.size a ≤ S10x384x128.size a
  inb_S1x1280_S1x128_0_512 : ∀ a, (![0, 512] : Fin 2 → Nat) a + S1x128.size a ≤ S1x1280.size a
  inb_S256x1280_S256x128_0_512 : ∀ a, (![0, 512] : Fin 2 → Nat) a + S256x128.size a ≤ S256x1280.size a
  slices_S256x1280_o0_512_S256x384 : S256x1280.Slices ![0, 512] S256x384
  inb_S10x384x128_S1x384x128_5_0_0 : ∀ a, (![5, 0, 0] : Fin 3 → Nat) a + S1x384x128.size a ≤ S10x384x128.size a
  inb_S1x1280_S1x128_0_640 : ∀ a, (![0, 640] : Fin 2 → Nat) a + S1x128.size a ≤ S1x1280.size a
  inb_S256x1280_S256x128_0_640 : ∀ a, (![0, 640] : Fin 2 → Nat) a + S256x128.size a ≤ S256x1280.size a
  slices_S256x1280_o0_640_S256x384 : S256x1280.Slices ![0, 640] S256x384
  inb_S10x384x128_S1x384x128_6_0_0 : ∀ a, (![6, 0, 0] : Fin 3 → Nat) a + S1x384x128.size a ≤ S10x384x128.size a
  inb_S1x1280_S1x128_0_768 : ∀ a, (![0, 768] : Fin 2 → Nat) a + S1x128.size a ≤ S1x1280.size a
  inb_S256x1280_S256x128_0_768 : ∀ a, (![0, 768] : Fin 2 → Nat) a + S256x128.size a ≤ S256x1280.size a
  slices_S256x1280_o0_768_S256x384 : S256x1280.Slices ![0, 768] S256x384
  inb_S10x384x128_S1x384x128_7_0_0 : ∀ a, (![7, 0, 0] : Fin 3 → Nat) a + S1x384x128.size a ≤ S10x384x128.size a
  inb_S1x1280_S1x128_0_896 : ∀ a, (![0, 896] : Fin 2 → Nat) a + S1x128.size a ≤ S1x1280.size a
  inb_S256x1280_S256x128_0_896 : ∀ a, (![0, 896] : Fin 2 → Nat) a + S256x128.size a ≤ S256x1280.size a
  slices_S256x1280_o0_896_S256x384 : S256x1280.Slices ![0, 896] S256x384
  inb_S10x384x128_S1x384x128_8_0_0 : ∀ a, (![8, 0, 0] : Fin 3 → Nat) a + S1x384x128.size a ≤ S10x384x128.size a
  inb_S1x1280_S1x128_0_1024 : ∀ a, (![0, 1024] : Fin 2 → Nat) a + S1x128.size a ≤ S1x1280.size a
  inb_S256x1280_S256x128_0_1024 : ∀ a, (![0, 1024] : Fin 2 → Nat) a + S256x128.size a ≤ S256x1280.size a
  inb_S10x384x128_S1x384x128_9_0_0 : ∀ a, (![9, 0, 0] : Fin 3 → Nat) a + S1x384x128.size a ≤ S10x384x128.size a
  inb_S1x1280_S1x128_0_1152 : ∀ a, (![0, 1152] : Fin 2 → Nat) a + S1x128.size a ≤ S1x1280.size a
  inb_S256x1280_S256x128_0_1152 : ∀ a, (![0, 1152] : Fin 2 → Nat) a + S256x128.size a ≤ S256x1280.size a
  gather_S10x10_S10x384x128x2_S10x384x128_n_01_n_n_01_3_11_wf : GatherDims.WF S10x10 S10x384x128x2 S10x384x128 [] [0, 1] [] [0, 1] [] 3 ![1, 1]
  dot_S256x384_S384x128_S256x128_1_0_0_1_n_n_wf : DotDims.WF S256x384 S384x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1280.size a ≤ S8192x1280.size a
  hwx0_0 : ∀ i : grid0.Coords, EltTy.bits .f32 = 32 ∨ (Rect.block (s := S8192x1280) S256x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x384x128.size a ≤ S10x384x128.size a
  hwx0_1 : ∀ i : grid0.Coords, EltTy.bits .f32 = 32 ∨ (Rect.block (s := S10x384x128) S10x384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x1280.size a
  hwx0_2 : ∀ i : grid0.Coords, EltTy.bits .f32 = 32 ∨ (Rect.block (s := S1x1280) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1280.size a ≤ S8192x1280.size a
  hwx0_3 : ∀ i : grid0.Coords, EltTy.bits .f32 = 32 ∨ (Rect.block (s := S8192x1280) S256x1280.size (cc0_transform_3 i) (hinb0_3 i)).WholeWords (EltTy.packing .f32)

variable [Facts₀]

def gather_S10x10_S10x384x128x2_S10x384x128_n_01_n_n_01_3_11 : GatherDims S10x10 S10x384x128x2 S10x384x128 where
  offsetDims := []
  collapsedSliceDims := [0, 1]
  operandBatchingDims := []
  startIndicesBatchingDims := []
  startIndexMap := [0, 1]
  indexVectorDim := 3
  sliceSizes := ![1, 1]
  wf := gather_S10x10_S10x384x128x2_S10x384x128_n_01_n_n_01_3_11_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf

abbrev win0_0 : Pipeline.Window sig grid0 :=
  Pipeline.Window.ofSpec (Memref.whole main_call0_v0) S256x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v39) S10x384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v43) S1x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v44) S256x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x10 : Shape := ⟨2, ![1048576, 10]⟩
abbrev S10x10 : Shape := ⟨2, ![10, 10]⟩
abbrev S10 : Shape := ⟨1, ![10]⟩
abbrev S1x10 : Shape := ⟨2, ![1, 10]⟩
abbrev S16x655360 : Shape := ⟨2, ![16, 655360]⟩
abbrev S4096x10 : Shape := ⟨2, ![4096, 10]⟩

abbrev nBuf : Space → Nat
  | .hbm => 7
  | .vmem => 6
  | .smem => 0
  | _ => 0

abbrev bufTy : (tb : Table) → Fin (tcTables nBuf tb) → BufTy
  | .hbm, ⟨0, _⟩ => ⟨S1048576x10, .f32⟩
  | .hbm, ⟨1, _⟩ => ⟨S10x10, .f32⟩
  | .hbm, ⟨2, _⟩ => ⟨S10, .f32⟩
  | .hbm, ⟨3, _⟩ => ⟨S10x10, .f32⟩
  | .hbm, ⟨4, _⟩ => ⟨S1x10, .f32⟩
  | .hbm, ⟨5, _⟩ => ⟨S1048576x10, .f32⟩
  | .hbm, ⟨6, _⟩ => ⟨S16x655360, .f32⟩
  | .local _ .vmem, ⟨0, _⟩ => ⟨S4096x10, .f32⟩
  | .local _ .vmem, ⟨1, _⟩ => ⟨S4096x10, .f32⟩
  | .local _ .vmem, ⟨2, _⟩ => ⟨S10x10, .f32⟩
  | .local _ .vmem, ⟨3, _⟩ => ⟨S1x10, .f32⟩
  | .local _ .vmem, ⟨4, _⟩ => ⟨S4096x10, .f32⟩
  | .local _ .vmem, ⟨5, _⟩ => ⟨S4096x10, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S10x10_S10x10_1_0 : S10x10.Transposes [1, 0] S10x10
  shapeCasts_S10_S1x10 : S10.ShapeCasts S1x10
  shapeCasts_S1048576x10_S16x655360 : S1048576x10.ShapeCasts S16x655360
  inb_S4096x10_S4096x10_0_0 : ∀ a, (![0, 0] : Fin 2 → Nat) a + S4096x10.size a ≤ S4096x10.size a
  h_S4096x10 : 0 < S4096x10.numel
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4096x10 : S1x10.Broadcasts S4096x10
  dot_S4096x10_S10x10_S4096x10_1_0_0_1_n_n_wf : DotDims.WF S4096x10 S10x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S1048576x10.size a
  hwx0_0 : ∀ i : grid0.Coords, EltTy.bits .f32 = 32 ∨ (Rect.block (s := S1048576x10) S4096x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x10.size a ≤ S10x10.size a
  hwx0_1 : ∀ i : grid0.Coords, EltTy.bits .f32 = 32 ∨ (Rect.block (s := S10x10) S10x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x10.size a ≤ S1048576x10.size a
  hwx0_3 : ∀ i : grid0.Coords, EltTy.bits .f32 = 32 ∨ (Rect.block (s := S1048576x10) S4096x10.size (cc0_transform_3 i) (hinb0_3 i)).WholeWords (EltTy.packing .f32)

variable [Facts₀]

def dot_S4096x10_S10x10_S4096x10_1_0_0_1_n_n : DotDims S4096x10 S10x10 S4096x10 where
  lhsContracting := [1]
  rhsContracting := [0]
  lhsNonContracting := [0]
  rhsNonContracting := [1]
  lhsBatch := []
  rhsBatch := []
  wf := dot_S4096x10_S10x10_S4096x10_1_0_0_1_n_n_wf

abbrev win0_0 : Pipeline.Window sig grid0 :=
  Pipeline.Window.ofSpec (Memref.whole main_arg0) S4096x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S10x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S4096x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  The function both programs compute, stated once over the argument arrays, and the one law on finite sums
  that joins the banded arrangement to the plain one.

  The arguments are x : [1048576, 10], w : [10, 10] (stored [out, in]) and b : [10]. Row n of the linear layer is
  y(n, j) = (∑ k, x(n, k) · w(j, k)) + b(j). The result array [16, 655360] holds y in row-major order: the entry at
  (i0, i1) sits at flat position 655360·i0 + i1, and that position is row (flat / 10), feature (flat % 10) of y.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![1048576, 10]⟩
abbrev SW : Shape := ⟨2, ![10, 10]⟩
abbrev SB : Shape := ⟨1, ![10]⟩
abbrev SO : Shape := ⟨2, ![16, 655360]⟩

/-- One entry of the linear layer: row `n` of x against row `j` of w, plus the bias. -/
def lin (x : SX.Idx → EReal) (w : SW.Idx → EReal) (b : SB.Idx → EReal) (n : Fin 1048576) (j : Fin 10) : EReal :=
  (∑ k : Fin 10, x (ix2 n k) * w (ix2 j k)) + b (ix1 j)

/-- The row-major position of an entry of the result array. -/
def flat (i : SO.Idx) : ℕ := 655360 * (i 0).val + (i 1).val

theorem flat_lt (i : SO.Idx) : flat i < 10485760 := by
  have h0 : (i 0).val < 16 := idx2_lt0 i
  have h1 : (i 1).val < 655360 := idx2_lt1 i
  unfold flat; omega

/-- The result array: at flat position f the linear layer's entry (f / 10, f % 10). -/
def G (x : SX.Idx → EReal) (w : SW.Idx → EReal) (b : SB.Idx → EReal) : SO.Idx → EReal := fun i =>
  lin x w b ⟨flat i / 10, by have := flat_lt i; omega⟩ ⟨flat i % 10, Nat.mod_lt _ (by norm_num)⟩

/-- A sum of terms that vanish off a set which an injection from a smaller index type enumerates is the sum over
    that smaller type. -/
theorem sum_ite_eq_of_enum {M : Type*} [AddCommMonoid M] {n m : ℕ} (c : Fin n → Prop) [DecidablePred c]
    (A : Fin n → M) (B : Fin m → M) (e : Fin m → Fin n) (he : Function.Injective e) (hc : ∀ k, c (e k))
    (hsurj : ∀ κ, c κ → ∃ k, e k = κ) (hAB : ∀ k, A (e k) = B k) :
    ∑ κ, (if c κ then A κ else 0) = ∑ k, B k := by
  rw [← Finset.sum_filter]
  symm
  refine Finset.sum_bij (fun k _ => e k) ?_ ?_ ?_ ?_
  · intro k _; exact Finset.mem_filter.mpr ⟨Finset.mem_univ _, hc k⟩
  · intro a _ b _ h; exact he h
  · intro κ hκ
    obtain ⟨k, hk⟩ := hsurj κ (Finset.mem_filter.mp hκ).2
    exact ⟨k, Finset.mem_univ _, hk⟩
  · intro k _; exact (hAB k).symm

end Cert.Spec

end
-- ==== Proof.RefValue.lean ====
/-
  The reference program's result as one function of its argument arrays.

  The program transposes w and views b as one row, runs one region over 256 grid points — point t reads rows
  4096·t … 4096·t + 4095 of x, the whole transposed w and the row of b, and writes the same rows of a [1048576, 10]
  array y —, and ends by reading y row-major as a [16, 655360] array. Here: the two arrays the host lines before the
  region write, read at an index; the region body's stored value at an index, y(r, j) = (∑ k, x(r, k) · wᵀ(k, j)) + b(j);
  point t's block as block t of one whole-array function; the blocks cover the array; and the last reshape at an index.
-/
import proofs.«140140_g2000106001300788_pallasbulk_809_2_alg».proof.Proof.Gen.ReferenceIdeal.Frame
import proofs.«140140_g2000106001300788_pallasbulk_809_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

/-! ## The region body's stored value at an index -/

/-- The product of a [4096, 10] block by a [10, 10] matrix into the zero accumulator, at (r, j): the sum over the
    contracted coordinate. -/
theorem matmul_at (A : FVec Ideal S4096x10 .f32) (B : FVec Ideal S10x10 .f32) (r : Fin 4096) (j : Fin 10) :
    matmul dot_S4096x10_S10x10_S4096x10_1_0_0_1_n_n none A B (constant S4096x10 .f32 0x00000000#32) (ix2 r j)
      = ∑ k : Fin 10, A (ix2 r k) * B (ix2 k j) := by
  show FloatOps.matmul _ none A B (constant S4096x10 .f32 0x00000000#32) (ix2 r j) = _
  rw [Ideal.matmul_constant_zero_apply,
    ← Equiv.sum_comp (contrEquiv1 dot_S4096x10_S10x10_S4096x10_1_0_0_1_n_n 10 rfl rfl).symm]
  refine Finset.sum_congr rfl fun c _ => ?_
  have c2 := contrEquiv1_symm_val dot_S4096x10_S10x10_S4096x10_1_0_0_1_n_n 10 rfl rfl c
  have l2 : dot_S4096x10_S10x10_S4096x10_1_0_0_1_n_n.lhsIdx (ix2 r j) ((contrEquiv1 _ 10 rfl rfl).symm c) = ix2 r c := by
    funext ax; apply Fin.ext
    match ax with
    | ⟨0, _⟩ => simp [DotDims.lhsIdx, dot_S4096x10_S10x10_S4096x10_1_0_0_1_n_n]; rfl
    | ⟨1, _⟩ => simp [DotDims.lhsIdx, dot_S4096x10_S10x10_S4096x10_1_0_0_1_n_n]; exact c2
  have r2 : dot_S4096x10_S10x10_S4096x10_1_0_0_1_n_n.rhsIdx (ix2 r j) ((contrEquiv1 _ 10 rfl rfl).symm c) = ix2 c j := by
    funext ax; apply Fin.ext
    match ax with
    | ⟨0, _⟩ => simp [DotDims.rhsIdx, dot_S4096x10_S10x10_S4096x10_1_0_0_1_n_n]; exact c2
    | ⟨1, _⟩ => simp [DotDims.rhsIdx, dot_S4096x10_S10x10_S4096x10_1_0_0_1_n_n]; rfl
  rw [l2, r2]

/-- What the body stores, at (r, j): row r of the block against column j of the matrix, plus entry j of the row. -/
theorem pay_at (x0 : Vec Ideal S4096x10 .f32) (x1 : Vec Ideal S10x10 .f32) (x2 : Vec Ideal S1x10 .f32) (r : Fin 4096) (j : Fin 10) :
    k0_pay1 x0 x1 x2 (ix2 r j) = (∑ k : Fin 10, x0 (ix2 r k) * x1 (ix2 k j)) + x2 (ix2 (0 : Fin 1) j) := by
  unfold k0_pay1
  rw [shapeCast_self, shapeCast_self]
  show matmul (F := Ideal) dot_S4096x10_S10x10_S4096x10_1_0_0_1_n_n none x0 x1 (constant S4096x10 .f32 0x00000000#32) (ix2 r j)
      + broadcastTo S4096x10 x2 broadcasts_S1x10_S4096x10 (ix2 r j) = _
  rw [matmul_at, broadcastTo_1b_ab_apply]

variable (m : (ℓ : Loc nD τ sig) → Buf (Elt Ideal) ℓ) (ρ : Dev nD → PrngReg)

/-! ## The arrays the host lines before the region write -/

/-- The transposed matrix, as the region finds it, at (k, j): the matrix argument at (j, k). -/
theorem V_wt_at (c : Dev nD) (k j : Fin 10) :
    V m c main_call0_v0 (ix2 k j) = m ((c.tc : Thread nD τ).loc main_arg1) (ix2 j k) := by
  have e : (V m c main_call0_v0 : S10x10.Idx → EReal)
      = transpose S10x10 [1, 0] (m ((c.tc : Thread nD τ).loc main_arg1)) transposes_S10x10_S10x10_1_0 := by
    show StableHlo.after hostOps0 (fun b => m (c, b)) (Proc.devRef .tc main_call0_v0) = _
    after_results
    rfl
  rw [e]
  exact transpose_ix2_apply _ _ k j

/-- The bias viewed as one row, as the region finds it, at (0, j): the bias argument at j. -/
theorem V_brow_at (c : Dev nD) (u : Fin 1) (j : Fin 10) :
    V m c main_call0_v1 (ix2 u j) = m ((c.tc : Thread nD τ).loc main_arg2) (ix1 j) := by
  have e : (V m c main_call0_v1 : S1x10.Idx → EReal)
      = shapeCast S1x10 (m ((c.tc : Thread nD τ).loc main_arg2)) shapeCasts_S10_S1x10 := by
    show StableHlo.after hostOps0 (fun b => m (c, b)) (Proc.devRef .tc main_call0_v1) = _
    after_results
    rfl
  rw [e]
  exact shapeCast_a_1a_apply _ _ u j

/-! ## The region's array as one function of the arrays it reads -/

/-- One entry of the linear layer over the arrays the region reads: row n of the input against column j of the
    transposed matrix, plus entry j of the bias row. -/
def row (A : S1048576x10.Idx → EReal) (W : S10x10.Idx → EReal) (B : S1x10.Idx → EReal) (n : Fin 1048576) (j : Fin 10) : EReal :=
  (∑ k : Fin 10, A (ix2 n k) * W (ix2 k j)) + B (ix2 (0 : Fin 1) j)

/-- The whole [1048576, 10] array of those entries. -/
def Y (A : S1048576x10.Idx → EReal) (W : S10x10.Idx → EReal) (B : S1x10.Idx → EReal) : S1048576x10.Idx → EReal := fun i =>
  row A W B ⟨(i 0).val, idx2_lt0 i⟩ ⟨(i 1).val, idx2_lt1 i⟩

/-- The body's stored value at (r, j), when row r of its first block is row n of the array A and its other two blocks
    are W and B where it reads them, is entry (n, j) of the linear layer. -/
theorem blk_entry (A : S1048576x10.Idx → EReal) (W : S10x10.Idx → EReal) (B : S1x10.Idx → EReal)
    (x0 : Vec Ideal S4096x10 .f32) (x1 : Vec Ideal S10x10 .f32) (x2 : Vec Ideal S1x10 .f32)
    (n : Fin 1048576) (r : Fin 4096) (j : Fin 10)
    (h0 : ∀ k : Fin 10, x0 (ix2 r k) = A (ix2 n k))
    (h1 : ∀ k : Fin 10, x1 (ix2 k j) = W (ix2 k j))
    (h2 : x2 (ix2 (0 : Fin 1) j) = B (ix2 (0 : Fin 1) j)) :
    k0_pay1 x0 x1 x2 (ix2 r j) = row A W B n j := by
  rw [pay_at]
  unfold row
  rw [h2]
  exact congrArg (· + B (ix2 (0 : Fin 1) j)) (Finset.sum_congr rfl fun k _ => by rw [h0 k, h1 k])

theorem hz : (![0, 0] : Fin 2 → Nat) = fun _ => 0 := funext fun a => by fin_cases a <;> rfl

/-- The printed index maps over the grid: the input's and the output's block index is the point on the row axis and 0 on
    the other; the matrix's and the bias row's is 0 on both. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the linear layer over the arrays as the region finds them. -/
theorem flushed_eq (c : Dev nD) (t : Fin cfg0.N) :
    (dats m 0 c).flushed 3 t = ((cfg0.win 3).blk t).view.read (Elt Ideal)
      (Y (V m c main_arg0) (V m c main_call0_v0) (V m c main_call0_v1)) := by
  show (cfg0.win 3).cut (grid0.coords t) ((dats m 0 c).after 3 t) = _
  rw [after0_3]
  unfold out0_3
  rw [View.canon_unit_zero hz]
  simp only [View.ld_unit_zero (S := S4096x10) hz, View.ld_unit_zero (S := S10x10) hz, View.ld_unit_zero (S := S1x10) hz]
  obtain ⟨e00, e01, e10, e11, e20, e21, e30, e31⟩ := idx_facts t
  have ht : t.val < 256 := lt_of_lt_of_eq t.isLt N_0
  funext y
  obtain ⟨r, j, rfl⟩ : ∃ (r : Fin 4096) (j : Fin 10), y = ix2 r j := ⟨y 0, y 1, eq_ix2 y⟩
  show k0_pay1 (iblk m c 0 t) (iblk m c 1 t) (iblk m c 2 t) (ix2 r j)
      = Y (V m c main_arg0) (V m c main_call0_v0) (V m c main_call0_v1) (((cfg0.win 3).blk t).view.emb (ix2 r j))
  refine (blk_entry (V m c main_arg0) (V m c main_call0_v0) (V m c main_call0_v1) (iblk m c 0 t) (iblk m c 1 t) (iblk m c 2 t)
    ⟨4096 * t.val + r.val, by omega⟩ r j ?_ ?_ ?_).trans ?_
  · intro k
    show V m c main_arg0 (((cfg0.win 0).blk t).view.emb (ix2 r k)) = V m c main_arg0 (ix2 ⟨4096 * t.val + r.val, by omega⟩ k)
    refine congrArg (V m c main_arg0) (funext fun a => Fin.ext ?_)
    match a with
    | ⟨0, _⟩ => show win0_0.index t (0 : Fin 2) * 4096 + 1 * r.val = 4096 * t.val + r.val; omega
    | ⟨1, _⟩ => show win0_0.index t (1 : Fin 2) * 10 + 1 * k.val = k.val; omega
  · intro k
    show V m c main_call0_v0 (((cfg0.win 1).blk t).view.emb (ix2 k j)) = V m c main_call0_v0 (ix2 k j)
    refine congrArg (V m c main_call0_v0) (funext fun a => Fin.ext ?_)
    match a with
    | ⟨0, _⟩ => show win0_1.index t (0 : Fin 2) * 10 + 1 * k.val = k.val; omega
    | ⟨1, _⟩ => show win0_1.index t (1 : Fin 2) * 10 + 1 * j.val = j.val; omega
  · show V m c main_call0_v1 (((cfg0.win 2).blk t).view.emb (ix2 (0 : Fin 1) j)) = V m c main_call0_v1 (ix2 (0 : Fin 1) j)
    refine congrArg (V m c main_call0_v1) (funext fun a => Fin.ext ?_)
    match a with
    | ⟨0, _⟩ => show win0_2.index t (0 : Fin 2) * 1 + 1 * 0 = 0; omega
    | ⟨1, _⟩ => show win0_2.index t (1 : Fin 2) * 10 + 1 * j.val = j.val; omega
  · have q0 : ((((cfg0.win 3).blk t).view.emb (ix2 r j)) 0).val = 4096 * t.val + r.val := by
      show win0_3.index t (0 : Fin 2) * 4096 + 1 * r.val = 4096 * t.val + r.val; omega
    have q1 : ((((cfg0.win 3).blk t).view.emb (ix2 r j)) 1).val = j.val := by
      show win0_3.index t (1 : Fin 2) * 10 + 1 * j.val = j.val; omega
    unfold Y
    congr 1
    · exact Fin.ext q0.symm
    · exact Fin.ext q1.symm

/-! ## The blocks cover the array -/

/-- An index of the array is in point t's block iff each coordinate is in the block's range on its axis. -/
theorem mem_blk (t : Fin cfg0.N) (i : S1048576x10.Idx) :
    i ∈ ((cfg0.win 3).blk t).view.set ↔ ∀ a : Fin 2, win0_3.index t a * S4096x10.size a ≤ (i a).val
      ∧ (i a).val < win0_3.index t a * S4096x10.size a + S4096x10.size a := by
  show i ∈ ((View.whole main_call0_v2).slice (win0_3.rect t)).set ↔ _
  rw [View.set_slice_whole, Rect.mem_set_unit]
  exact Iff.rfl

/-- Row n of the array is in the block of point n / 4096. -/
theorem cover (i : S1048576x10.Idx) :
    ∃ t : Fin cfg0.N, (cfg0.win 3).flush t = true ∧ i ∈ ((cfg0.win 3).blk t).view.set := by
  have hi0 : (i 0).val < 1048576 := idx2_lt0 i
  have hi1 : (i 1).val < 10 := idx2_lt1 i
  obtain ⟨t, ht⟩ : ∃ t : Fin cfg0.N, t.val = (i 0).val / 4096 :=
    ⟨⟨(i 0).val / 4096, lt_of_lt_of_eq (by omega : (i 0).val / 4096 < 256) N_0.symm⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 10 ≤ (i 1).val ∧ (i 1).val < win0_3.index t (1 : Fin 2) * 10 + 10
    omega

/-- The region's output array after the run is the linear layer over the arrays the region reads. -/
theorem final (c : Dev nD) :
    (dats m 0 c).arrAt 3 cfg0.N = Y (V m c main_arg0) (V m c main_call0_v0) (V m c main_call0_v1) :=
  (dats m 0 c).arrAt_eq_of_cover 3 _ (fun t _ => flushed_eq m c t) cover

/-! ## The last reshape, and the result as the specification's function -/

/-- The [1048576, 10] array of the linear layer read row-major as [16, 655360]: at an index, the entry at row
    (flat / 10), column (flat % 10). -/
theorem Y_reshape_at (A : S1048576x10.Idx → EReal) (W : S10x10.Idx → EReal) (B : S1x10.Idx → EReal) (i : S16x655360.Idx) :
    shapeCast S16x655360 (Y A W B) shapeCasts_S1048576x10_S16x655360 i
      = row A W B ⟨Cert.Spec.flat i / 10, by have := Cert.Spec.flat_lt i; omega⟩ ⟨Cert.Spec.flat i % 10, Nat.mod_lt _ (by norm_num)⟩ := by
  have hf := Cert.Spec.flat_lt i
  refine (shapeCast_apply (Y A W B) shapeCasts_S1048576x10_S16x655360 i
    (ix2 (⟨Cert.Spec.flat i / 10, by omega⟩ : Fin 1048576) (⟨Cert.Spec.flat i % 10, Nat.mod_lt _ (by norm_num)⟩ : Fin 10)) ?_).trans ?_
  · rw [Shape.rowMajor_val_two, Shape.rowMajor_val_two]
    show Cert.Spec.flat i / 10 * 10 + Cert.Spec.flat i % 10 = (i 0).val * 655360 + (i 1).val
    unfold Cert.Spec.flat
    omega
  · rfl

/-- Over the arrays as the region finds them, an entry of the linear layer is the specification's entry over the
    arguments: the transposed matrix at (k, j) is w at (j, k), and the bias row at (0, j) is b at j. -/
theorem row_eq_lin (c : Dev nD) (n : Fin 1048576) (j : Fin 10) :
    row (V m c main_arg0) (V m c main_call0_v0) (V m c main_call0_v1) n j
      = Cert.Spec.lin (m ((c.tc : Thread nD τ).loc main_arg0)) (m ((c.tc : Thread nD τ).loc main_arg1))
          (m ((c.tc : Thread nD τ).loc main_arg2)) n j := by
  unfold row Cert.Spec.lin
  rw [V_brow_at, V_main_arg0]
  exact congrArg (· + m ((c.tc : Thread nD τ).loc main_arg2) (ix1 j)) (Finset.sum_congr rfl fun k _ => by rw [V_wt_at])

/-- What the host line after the region leaves in the result buffer: the specification's function of the arguments. -/
theorem tail_eq (c : Dev nD) :
    Pipeline.afterTail₀ cfgs (dats m) 0 (V0 m) [hostOps1] c main_v0
      = Cert.Spec.G (m ((c.tc : Thread nD τ).loc main_arg0)) (m ((c.tc : Thread nD τ).loc main_arg1))
          (m ((c.tc : Thread nD τ).loc main_arg2)) := by
  have e : Pipeline.withArrays (cfgs 0).spec c (V0 m c) (fun w => (dats m 0 c).arrAt w (cfgs 0).N) (Proc.devRef .tc main_call0_v2)
      = Y (V m c main_arg0) (V m c main_call0_v0) (V m c main_call0_v1) :=
    (Pipeline.withArrays_arr spec0 launch0.win.arr_inj c _ _ 3).trans (final m c)
  unfold Pipeline.afterTail₀
  show StableHlo.after hostOps1 _ (Proc.devRef .tc main_v0) = _
  after_results
  funext i
  show shapeCast S16x655360 (Pipeline.withArrays (cfgs 0).spec c (V0 m c) (fun w => (dats m 0 c).arrAt w (cfgs 0).N)
    (Proc.devRef .tc main_call0_v2)) shapeCasts_S1048576x10_S16x655360 i = _
  rw [e, Y_reshape_at]
  exact row_eq_lin m c _ _

/-! ## The run, read -/

/-- Every weakly fair execution of the reference from a memory with zero counters terminates with the result buffer at
    the specification's function of the arguments and the arguments unchanged: the frame run, with the region's array
    read through the blocks and the host lines around it. -/
theorem run : θ_run (defs (F := Ideal)) (onTc (τ := τ) (main (F := Ideal))) ⟨m, fun _ => 0, ρ⟩ fun r => ∀ c : Dev nD,
      r.2.mem ((c.tc : Thread nD τ).loc main_v0)
        = Cert.Spec.G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.RefValue

end
-- ==== Proof.KSpec.lean ====
/-
  The kernel's arrangement of the same computation, stated over the three arrays its windows stage.

  X2 is x re-laid as 8192 dense rows of 1280 lanes, M the ten band matrices [10, 384, 128] and B2 the bias tiled into one
  row of 1280. Output lane cc of dense row R lies in tile cc / 128 at lane cc % 128 of that tile; it is the product of the
  384 lanes of X2's row R that start at the tile's window start with column cc % 128 of the tile's band matrix, plus the
  tiled bias at cc.
-/
import proofs.«140140_g2000106001300788_pallasbulk_809_2_alg».proof.Proof.Spec

noncomputable section

open scoped BigOperators

namespace Cert.Spec

open Idealize.ShloMosaic Idealize.ShloMosaic.ValueIdx

abbrev SX2 : Shape := ⟨2, ![8192, 1280]⟩
abbrev SM : Shape := ⟨3, ![10, 384, 128]⟩
abbrev SB2 : Shape := ⟨2, ![1, 1280]⟩

/-- The first input lane of each output tile's window. -/
def startN : Fin 10 → ℕ := ![0, 0, 128, 256, 384, 512, 640, 768, 896, 896]

/-- Every window of 384 lanes lies inside the dense row. -/
theorem startN_le : ∀ j : Fin 10, startN j + 384 ≤ 1280 := by decide

/-- One entry of the banded product: dense row `R`, output lane `cc`. -/
def banded (X2 : SX2.Idx → EReal) (M : SM.Idx → EReal) (B2 : SB2.Idx → EReal) (R : Fin 8192) (cc : Fin 1280) : EReal :=
  (∑ κ : Fin 384,
      X2 (ix2 R (⟨startN ⟨cc.val / 128, by have := cc.isLt; omega⟩ + κ.val,
        by have := startN_le ⟨cc.val / 128, by have := cc.isLt; omega⟩; have := κ.isLt; omega⟩ : Fin 1280))
      * M (ix3 (⟨cc.val / 128, by have := cc.isLt; omega⟩ : Fin 10) κ (⟨cc.val % 128, Nat.mod_lt _ (by norm_num)⟩ : Fin 128)))
    + B2 (ix2 (0 : Fin 1) cc)

end Cert.Spec

end
-- ==== Proof.KernelValue.lean ====
/-
  The kernel program's result as one function of the three arrays its windows stage.

  The region runs over 32 grid points; point t reads rows 256·t … 256·t + 255 of the dense [8192, 1280] array, the ten
  band matrices and the tiled bias row, and writes the same rows of a [8192, 1280] array in ten stores, one per tile of
  128 lanes: tile j is the product of the 384 lanes of the block that start at tile j's window start with band matrix j,
  plus the bias row's lanes of tile j. Here: one store's value at an index; the ten stores read back as one function of
  the block index; point t's block as block t of one whole-array function; the blocks cover the array; and the last
  reshape at an index.
-/
import proofs.«140140_g2000106001300788_pallasbulk_809_2_alg».proof.Proof.Gen.KernelIdeal.Frame
import proofs.«140140_g2000106001300788_pallasbulk_809_2_alg».proof.Proof.KSpec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

/-! ## One store's value at an index -/

/-- The product of a [256, 384] block by a [384, 128] matrix into the zero accumulator, at (r, n): the sum over the
    contracted coordinate. -/
theorem matmul_at (A : FVec Ideal S256x384 .f32) (B : FVec Ideal S384x128 .f32) (r : Fin 256) (n : Fin 128) :
    matmul dot_S256x384_S384x128_S256x128_1_0_0_1_n_n none A B (constant S256x128 .f32 0x00000000#32) (ix2 r n)
      = ∑ κ : Fin 384, A (ix2 r κ) * B (ix2 κ n) := by
  show FloatOps.matmul _ none A B (constant S256x128 .f32 0x00000000#32) (ix2 r n) = _
  rw [Ideal.matmul_constant_zero_apply,
    ← Equiv.sum_comp (contrEquiv1 dot_S256x384_S384x128_S256x128_1_0_0_1_n_n 384 rfl rfl).symm]
  refine Finset.sum_congr rfl fun c _ => ?_
  have c2 := contrEquiv1_symm_val dot_S256x384_S384x128_S256x128_1_0_0_1_n_n 384 rfl rfl c
  have l2 : dot_S256x384_S384x128_S256x128_1_0_0_1_n_n.lhsIdx (ix2 r n) ((contrEquiv1 _ 384 rfl rfl).symm c) = ix2 r c := by
    funext ax; apply Fin.ext
    match ax with
    | ⟨0, _⟩ => simp [DotDims.lhsIdx, dot_S256x384_S384x128_S256x128_1_0_0_1_n_n]; rfl
    | ⟨1, _⟩ => simp [DotDims.lhsIdx, dot_S256x384_S384x128_S256x128_1_0_0_1_n_n]; exact c2
  have r2 : dot_S256x384_S384x128_S256x128_1_0_0_1_n_n.rhsIdx (ix2 r n) ((contrEquiv1 _ 384 rfl rfl).symm c) = ix2 c n := by
    funext ax; apply Fin.ext
    match ax with
    | ⟨0, _⟩ => simp [DotDims.rhsIdx, dot_S256x384_S384x128_S256x128_1_0_0_1_n_n]; exact c2
    | ⟨1, _⟩ => simp [DotDims.rhsIdx, dot_S256x384_S384x128_S256x128_1_0_0_1_n_n]; rfl
  rw [l2, r2]

/-- One tile's value: the block's lanes from s on against one band matrix, plus one stretch of the bias row over the
    rows. -/
def tileVal (s : ℕ) (h : S256x1280.Slices ![0, s] S256x384) (X : FVec Ideal S256x1280 .f32)
    (M1 : Vec Ideal S1x384x128 .f32) (B1 : Vec Ideal S1x128 .f32) : FVec Ideal S256x128 .f32 :=
  addf (matmul dot_S256x384_S384x128_S256x128_1_0_0_1_n_n none (extractStridedSlice S256x384 ![0, s] X h)
      (shapeCast S384x128 M1 shapeCasts_S1x384x128_S384x128 : FVec Ideal S384x128 .f32) (constant S256x128 .f32 0x00000000#32))
    (broadcastTo S256x128 (shapeCast S1x128 B1 shapeCasts_S1x128_S1x128 : FVec Ideal S1x128 .f32) broadcasts_S1x128_S256x128)

/-- It reads, at (r, n): row r of the block from lane s against column n of the matrix, plus entry n of the stretch. -/
theorem tileVal_at (s : ℕ) (h : S256x1280.Slices ![0, s] S256x384) (X : FVec Ideal S256x1280 .f32)
    (M1 : Vec Ideal S1x384x128 .f32) (B1 : Vec Ideal S1x128 .f32) (r : Fin 256) (n : Fin 128) :
    tileVal s h X M1 B1 (ix2 r n)
      = (∑ κ : Fin 384, X (ix2 r ⟨s + κ.val, Nat.lt_of_lt_of_le (Nat.add_lt_add_left κ.isLt s) (h.2 1)⟩) * M1 (ix3 (0 : Fin 1) κ n))
        + B1 (ix2 (0 : Fin 1) n) := by
  unfold tileVal
  show matmul (F := Ideal) dot_S256x384_S384x128_S256x128_1_0_0_1_n_n none (extractStridedSlice S256x384 ![0, s] X h)
      (shapeCast S384x128 M1 shapeCasts_S1x384x128_S384x128 : FVec Ideal S384x128 .f32) (constant S256x128 .f32 0x00000000#32) (ix2 r n)
    + broadcastTo S256x128 (shapeCast S1x128 B1 shapeCasts_S1x128_S1x128 : FVec Ideal S1x128 .f32) broadcasts_S1x128_S256x128 (ix2 r n) = _
  rw [matmul_at, broadcastTo_1b_ab_apply, shapeCast_self]
  exact congrArg (· + B1 (ix2 (0 : Fin 1) n)) (Finset.sum_congr rfl fun κ _ => by
    rw [slice2_axis1_eq, shapeCast_1ab_ab_apply])

/-! ## The loads of one band matrix and of one stretch of the bias row -/

/-- The [1, 384, 128] load of the band matrices at leading offset o reads band matrix o. -/
theorem ld_band (x1 : Vec Ideal S10x384x128 .f32) (o : ℕ)
    (inb : ∀ a, (![o, 0, 0] : Fin 3 → ℕ) a + S1x384x128.size a ≤ S10x384x128.size a) (j : Fin 10) (hj : j.val = o)
    (κ : Fin 384) (n : Fin 128) :
    View.ld x1 (Rect.unit (s := S10x384x128) ![o, 0, 0] S1x384x128.size inb) (ix3 (0 : Fin 1) κ n) = x1 (ix3 j κ n) := by
  show x1 _ = x1 _
  refine congrArg x1 (funext fun a => Fin.ext ?_)
  match a with
  | ⟨0, _⟩ => show o + 1 * 0 = j.val; omega
  | ⟨1, _⟩ => show 0 + 1 * κ.val = κ.val; omega
  | ⟨2, _⟩ => show 0 + 1 * n.val = n.val; omega

/-- The [1, 128] load of the bias row at lane offset o reads the row from lane o on. -/
theorem ld_bias (x2 : Vec Ideal S1x1280 .f32) (o : ℕ)
    (inb : ∀ a, (![0, o] : Fin 2 → ℕ) a + S1x128.size a ≤ S1x1280.size a) (n : Fin 128) (q : Fin 1280) (hq : q.val = o + n.val) :
    View.ld x2 (Rect.unit (s := S1x1280) ![0, o] S1x128.size inb) (ix2 (0 : Fin 1) n) = x2 (ix2 (0 : Fin 1) q) := by
  show x2 _ = x2 _
  refine congrArg x2 (funext fun a => Fin.ext ?_)
  match a with
  | ⟨0, _⟩ => show 0 + 1 * 0 = 0; omega
  | ⟨1, _⟩ => show o + 1 * n.val = q.val; omega

theorem hz : (![0, 0] : Fin 2 → Nat) = fun _ => 0 := funext fun a => by fin_cases a <;> rfl

/-- The block as the body first reads it: the whole-buffer load, viewed at its own shape. -/
theorem blockRead (x0 : Vec Ideal S256x1280 .f32) : k0_pay2 (View.ld x0 r0_0) = x0 := by
  unfold k0_pay2
  rw [shapeCast_self, View.ld_unit_zero (S := S256x1280) hz]

/-! ## The ten stores read back as one function of the block index -/

/-- One entry of the banded product over a block: row r of the block, output lane cc. -/
def bandedBlk (x0 : S256x1280.Idx → EReal) (x1 : S10x384x128.Idx → EReal) (x2 : S1x1280.Idx → EReal) (r : Fin 256) (cc : Fin 1280) : EReal :=
  (∑ κ : Fin 384,
      x0 (ix2 r (⟨Cert.Spec.startN ⟨cc.val / 128, by have := cc.isLt; omega⟩ + κ.val,
        by have := Cert.Spec.startN_le ⟨cc.val / 128, by have := cc.isLt; omega⟩; have := κ.isLt; omega⟩ : Fin 1280))
      * x1 (ix3 (⟨cc.val / 128, by have := cc.isLt; omega⟩ : Fin 10) κ (⟨cc.val % 128, Nat.mod_lt _ (by norm_num)⟩ : Fin 128)))
    + x2 (ix2 (0 : Fin 1) cc)

/-- With the tile and the lane inside it named. -/
theorem bandedBlk_of (x0 : S256x1280.Idx → EReal) (x1 : S10x384x128.Idx → EReal) (x2 : S1x1280.Idx → EReal)
    (r : Fin 256) (cc : Fin 1280) (j : Fin 10) (hj : j.val = cc.val / 128) (n : Fin 128) (hn : n.val = cc.val % 128) :
    bandedBlk x0 x1 x2 r cc
      = (∑ κ : Fin 384, x0 (ix2 r (⟨Cert.Spec.startN j + κ.val,
            by have := Cert.Spec.startN_le j; have := κ.isLt; omega⟩ : Fin 1280)) * x1 (ix3 j κ n))
        + x2 (ix2 (0 : Fin 1) cc) := by
  obtain ⟨jv, hjv⟩ := j
  obtain ⟨nv, hnv⟩ := n
  have hj' : jv = cc.val / 128 := hj
  have hn' : nv = cc.val % 128 := hn
  subst hj' hn'
  rfl

/-- The whole [256, 1280] block of those entries. -/
def Gblk (x0 : S256x1280.Idx → EReal) (x1 : S10x384x128.Idx → EReal) (x2 : S1x1280.Idx → EReal) : S256x1280.Idx → EReal := fun y =>
  bandedBlk x0 x1 x2 ⟨(y 0).val, idx2_lt0 y⟩ ⟨(y 1).val, idx2_lt1 y⟩

/-- Tile j's store, read at (r, n), is the block function at the buffer index the store's rectangle puts (r, n) at. -/
theorem tile_ok (x0 : Vec Ideal S256x1280 .f32) (x1 : Vec Ideal S10x384x128 .f32) (x2 : Vec Ideal S1x1280 .f32)
    (j : Fin 10) (s : ℕ) (hs : Cert.Spec.startN j = s) (h : S256x1280.Slices ![0, s] S256x384)
    (ob : ℕ) (hob : j.val = ob) (inbM : ∀ a, (![ob, 0, 0] : Fin 3 → ℕ) a + S1x384x128.size a ≤ S10x384x128.size a)
    (oc : ℕ) (hoc : oc = 128 * j.val) (inbB : ∀ a, (![0, oc] : Fin 2 → ℕ) a + S1x128.size a ≤ S1x1280.size a)
    (inbO : ∀ a, (![0, oc] : Fin 2 → ℕ) a + S256x128.size a ≤ S256x1280.size a)
    (r : Fin 256) (n : Fin 128) :
    tileVal s h (k0_pay2 (View.ld x0 r0_0)) (View.ld x1 (Rect.unit (s := S10x384x128) ![ob, 0, 0] S1x384x128.size inbM))
        (View.ld x2 (Rect.unit (s := S1x1280) ![0, oc] S1x128.size inbB)) (ix2 r n)
      = Gblk x0 x1 x2 ((Rect.unit (s := S256x1280) ![0, oc] S256x128.size inbO).emb (ix2 r n)) := by
  have hjl : j.val < 10 := j.isLt
  have hnl : n.val < 128 := n.isLt
  have q0 : (((Rect.unit (s := S256x1280) ![0, oc] S256x128.size inbO).emb (ix2 r n)) 0).val = r.val := by
    show 0 + 1 * r.val = r.val; omega
  have q1 : (((Rect.unit (s := S256x1280) ![0, oc] S256x128.size inbO).emb (ix2 r n)) 1).val = oc + n.val := by
    show oc + 1 * n.val = oc + n.val; omega
  rw [tileVal_at, blockRead]
  unfold Gblk
  rw [bandedBlk_of x0 x1 x2 _ _ j (by show j.val = (((Rect.unit (s := S256x1280) ![0, oc] S256x128.size inbO).emb (ix2 r n)) 1).val / 128; rw [q1]; omega)
    n (by show n.val = (((Rect.unit (s := S256x1280) ![0, oc] S256x128.size inbO).emb (ix2 r n)) 1).val % 128; rw [q1]; omega)]
  rw [ld_bias x2 oc inbB n ⟨(((Rect.unit (s := S256x1280) ![0, oc] S256x128.size inbO).emb (ix2 r n)) 1).val, idx2_lt1 _⟩ q1]
  refine congrArg (· + _) (Finset.sum_congr rfl fun κ _ => ?_)
  rw [ld_band x1 ob inbM j hob κ n]
  refine congrArg (· * _) (congrArg x0 ?_)
  funext a
  match a with
  | ⟨0, _⟩ => exact Fin.ext q0.symm
  | ⟨1, _⟩ => exact Fin.ext (by show s + κ.val = Cert.Spec.startN j + κ.val; rw [hs])

/-- The output block after the body, at a buffer index: the ten stores tile the buffer, and each is its tile of the
    block function (tile, window start, and the three offsets of its loads and store, case by case). -/
theorem out_at (x0 : Vec Ideal S256x1280 .f32) (x1 : Vec Ideal S10x384x128 .f32) (x2 : Vec Ideal S1x1280 .f32) (y : S256x1280.Idx) :
    out0_3 x0 x1 x2 y = Gblk x0 x1 x2 y := by
  unfold out0_3
  refine View.canon_apply_of_pieces (Val := Elt Ideal) (e := .f32) (Gblk x0 x1 x2) _ ?_ y (cover0_3 _ _ _ _ _ _ _ _ _ _ y)
  intro p hp
  simp only [List.mem_cons, List.mem_nil_iff, or_false] at hp
  rcases hp with rfl | rfl | rfl | rfl | rfl | rfl | rfl | rfl | rfl | rfl
  all_goals
    intro x
    obtain ⟨r, n, rfl⟩ : ∃ (r : Fin 256) (n : Fin 128), x = ix2 r n := ⟨x 0, x 1, eq_ix2 x⟩
  · exact tile_ok x0 x1 x2 (9 : Fin 10) 896 rfl slices_S256x1280_o0_896_S256x384 9 rfl inb_S10x384x128_S1x384x128_9_0_0
      1152 rfl inb_S1x1280_S1x128_0_1152 inb_S256x1280_S256x128_0_1152 r n
  · exact tile_ok x0 x1 x2 (8 : Fin 10) 896 rfl slices_S256x1280_o0_896_S256x384 8 rfl inb_S10x384x128_S1x384x128_8_0_0
      1024 rfl inb_S1x1280_S1x128_0_1024 inb_S256x1280_S256x128_0_1024 r n
  · exact tile_ok x0 x1 x2 (7 : Fin 10) 768 rfl slices_S256x1280_o0_768_S256x384 7 rfl inb_S10x384x128_S1x384x128_7_0_0
      896 rfl inb_S1x1280_S1x128_0_896 inb_S256x1280_S256x128_0_896 r n
  · exact tile_ok x0 x1 x2 (6 : Fin 10) 640 rfl slices_S256x1280_o0_640_S256x384 6 rfl inb_S10x384x128_S1x384x128_6_0_0
      768 rfl inb_S1x1280_S1x128_0_768 inb_S256x1280_S256x128_0_768 r n
  · exact tile_ok x0 x1 x2 (5 : Fin 10) 512 rfl slices_S256x1280_o0_512_S256x384 5 rfl inb_S10x384x128_S1x384x128_5_0_0
      640 rfl inb_S1x1280_S1x128_0_640 inb_S256x1280_S256x128_0_640 r n
  · exact tile_ok x0 x1 x2 (4 : Fin 10) 384 rfl slices_S256x1280_o0_384_S256x384 4 rfl inb_S10x384x128_S1x384x128_4_0_0
      512 rfl inb_S1x1280_S1x128_0_512 inb_S256x1280_S256x128_0_512 r n
  · exact tile_ok x0 x1 x2 (3 : Fin 10) 256 rfl slices_S256x1280_o0_256_S256x384 3 rfl inb_S10x384x128_S1x384x128_3_0_0
      384 rfl inb_S1x1280_S1x128_0_384 inb_S256x1280_S256x128_0_384 r n
  · exact tile_ok x0 x1 x2 (2 : Fin 10) 128 rfl slices_S256x1280_o0_128_S256x384 2 rfl inb_S10x384x128_S1x384x128_2_0_0
      256 rfl inb_S1x1280_S1x128_0_256 inb_S256x1280_S256x128_0_256 r n
  · exact tile_ok x0 x1 x2 (1 : Fin 10) 0 rfl slices_S256x1280_o0_0_S256x384 1 rfl inb_S10x384x128_S1x384x128_1_0_0
      128 rfl inb_S1x1280_S1x128_0_128 inb_S256x1280_S256x128_0_128 r n
  · exact tile_ok x0 x1 x2 (0 : Fin 10) 0 rfl slices_S256x1280_o0_0_S256x384 0 rfl inb_S10x384x128_S1x384x128_0_0_0
      0 rfl inb_S1x1280_S1x128_0_0 inb_S256x1280_S256x128_0_0 r n

variable (m : (ℓ : Loc nD τ sig) → Buf (Elt Ideal) ℓ) (ρ : Dev nD → PrngReg)

/-! ## The region's array as one function of the arrays it reads -/

/-- The whole [8192, 1280] array of banded entries over the three staged arrays. -/
def Yk (A : S8192x1280.Idx → EReal) (M : S10x384x128.Idx → EReal) (B : S1x1280.Idx → EReal) : S8192x1280.Idx → EReal := fun i =>
  Cert.Spec.banded A M B ⟨(i 0).val, idx2_lt0 i⟩ ⟨(i 1).val, idx2_lt1 i⟩

/-- A block's banded entry at (r, cc), when row r of the block is row R of the array A, and the other two blocks are
    M and B where the entry reads them, is the array's banded entry at (R, cc). -/
theorem blk_entry (A : S8192x1280.Idx → EReal) (M : S10x384x128.Idx → EReal) (B : S1x1280.Idx → EReal)
    (x0 : S256x1280.Idx → EReal) (x1 : S10x384x128.Idx → EReal) (x2 : S1x1280.Idx → EReal)
    (R : Fin 8192) (r : Fin 256) (cc : Fin 1280)
    (h0 : ∀ q : Fin 1280, x0 (ix2 r q) = A (ix2 R q))
    (h1 : ∀ (j : Fin 10) (κ : Fin 384) (n : Fin 128), x1 (ix3 j κ n) = M (ix3 j κ n))
    (h2 : x2 (ix2 (0 : Fin 1) cc) = B (ix2 (0 : Fin 1) cc)) :
    bandedBlk x0 x1 x2 r cc = Cert.Spec.banded A M B R cc := by
  unfold bandedBlk Cert.Spec.banded
  rw [h2]
  exact congrArg (· + B (ix2 (0 : Fin 1) cc)) (Finset.sum_congr rfl fun κ _ => by rw [h0, h1])

/-- The printed index maps over the grid: the input's and the output's block index is the point on the row axis and 0 on
    the lane axis; the band matrices' and the bias row's is 0 on every axis. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the banded array over the arrays as the region finds them. -/
theorem flushed_eq (c : Dev nD) (t : Fin cfg0.N) :
    (dats m 0 c).flushed 3 t = ((cfg0.win 3).blk t).view.read (Elt Ideal)
      (Yk (V m c main_call0_v0) (V m c main_call0_v39) (V m c main_call0_v43)) := by
  show (cfg0.win 3).cut (grid0.coords t) ((dats m 0 c).after 3 t) = _
  rw [after0_3]
  obtain ⟨e00, e01, e10, e11, e12, e20, e21, e30, e31⟩ := idx_facts t
  have ht : t.val < 32 := lt_of_lt_of_eq t.isLt N_0
  funext y
  obtain ⟨r, q, rfl⟩ : ∃ (r : Fin 256) (q : Fin 1280), y = ix2 r q := ⟨y 0, y 1, eq_ix2 y⟩
  show out0_3 (iblk m c 0 t) (iblk m c 1 t) (iblk m c 2 t) (ix2 r q)
      = Yk (V m c main_call0_v0) (V m c main_call0_v39) (V m c main_call0_v43) (((cfg0.win 3).blk t).view.emb (ix2 r q))
  refine (out_at (iblk m c 0 t) (iblk m c 1 t) (iblk m c 2 t) (ix2 r q)).trans ?_
  have q0 : ((((cfg0.win 3).blk t).view.emb (ix2 r q)) 0).val = 256 * t.val + r.val := by
    show win0_3.index t (0 : Fin 2) * 256 + 1 * r.val = 256 * t.val + r.val; omega
  have q1 : ((((cfg0.win 3).blk t).view.emb (ix2 r q)) 1).val = q.val := by
    show win0_3.index t (1 : Fin 2) * 1280 + 1 * q.val = q.val; omega
  refine (blk_entry (V m c main_call0_v0) (V m c main_call0_v39) (V m c main_call0_v43) (iblk m c 0 t) (iblk m c 1 t) (iblk m c 2 t)
    ⟨256 * t.val + r.val, by omega⟩ r q ?_ ?_ ?_).trans ?_
  · intro q'
    show V m c main_call0_v0 (((cfg0.win 0).blk t).view.emb (ix2 r q')) = V m c main_call0_v0 (ix2 ⟨256 * t.val + r.val, by omega⟩ q')
    refine congrArg (V m c main_call0_v0) (funext fun a => Fin.ext ?_)
    match a with
    | ⟨0, _⟩ => show win0_0.index t (0 : Fin 2) * 256 + 1 * r.val = 256 * t.val + r.val; omega
    | ⟨1, _⟩ => show win0_0.index t (1 : Fin 2) * 1280 + 1 * q'.val = q'.val; omega
  · intro j κ n
    show V m c main_call0_v39 (((cfg0.win 1).blk t).view.emb (ix3 j κ n)) = V m c main_call0_v39 (ix3 j κ n)
    refine congrArg (V m c main_call0_v39) (funext fun a => Fin.ext ?_)
    match a with
    | ⟨0, _⟩ => show win0_1.index t (0 : Fin 3) * 10 + 1 * j.val = j.val; omega
    | ⟨1, _⟩ => show win0_1.index t (1 : Fin 3) * 384 + 1 * κ.val = κ.val; omega
    | ⟨2, _⟩ => show win0_1.index t (2 : Fin 3) * 128 + 1 * n.val = n.val; omega
  · show V m c main_call0_v43 (((cfg0.win 2).blk t).view.emb (ix2 (0 : Fin 1) q)) = V m c main_call0_v43 (ix2 (0 : Fin 1) q)
    refine congrArg (V m c main_call0_v43) (funext fun a => Fin.ext ?_)
    match a with
    | ⟨0, _⟩ => show win0_2.index t (0 : Fin 2) * 1 + 1 * 0 = 0; omega
    | ⟨1, _⟩ => show win0_2.index t (1 : Fin 2) * 1280 + 1 * q.val = q.val; omega
  · unfold Yk
    congr 1
    · exact Fin.ext q0.symm
    · exact Fin.ext q1.symm

/-! ## The blocks cover the array -/

/-- An index of the array is in point t's block iff each coordinate is in the block's range on its axis. -/
theorem mem_blk (t : Fin cfg0.N) (i : S8192x1280.Idx) :
    i ∈ ((cfg0.win 3).blk t).view.set ↔ ∀ a : Fin 2, win0_3.index t a * S256x1280.size a ≤ (i a).val
      ∧ (i a).val < win0_3.index t a * S256x1280.size a + S256x1280.size a := by
  show i ∈ ((View.whole main_call0_v44).slice (win0_3.rect t)).set ↔ _
  rw [View.set_slice_whole, Rect.mem_set_unit]
  exact Iff.rfl

/-- Row R of the array is in the block of point R / 256. -/
theorem cover (i : S8192x1280.Idx) :
    ∃ t : Fin cfg0.N, (cfg0.win 3).flush t = true ∧ i ∈ ((cfg0.win 3).blk t).view.set := by
  have hi0 : (i 0).val < 8192 := idx2_lt0 i
  have hi1 : (i 1).val < 1280 := idx2_lt1 i
  obtain ⟨t, ht⟩ : ∃ t : Fin cfg0.N, t.val = (i 0).val / 256 :=
    ⟨⟨(i 0).val / 256, lt_of_lt_of_eq (by omega : (i 0).val / 256 < 32) N_0.symm⟩, rfl⟩
  obtain ⟨-, -, -, -, -, -, -, e30, e31⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1280 ≤ (i 1).val ∧ (i 1).val < win0_3.index t (1 : Fin 2) * 1280 + 1280
    omega

/-- The region's output array after the run is the banded array over the arrays the region reads. -/
theorem final (c : Dev nD) :
    (dats m 0 c).arrAt 3 cfg0.N = Yk (V m c main_call0_v0) (V m c main_call0_v39) (V m c main_call0_v43) :=
  (dats m 0 c).arrAt_eq_of_cover 3 _ (fun t _ => flushed_eq m c t) cover

/-! ## The last reshape -/

/-- The [8192, 1280] banded array read row-major as [16, 655360]: at an index, the entry at row (flat / 1280), lane
    (flat % 1280). -/
theorem Yk_reshape_at (A : S8192x1280.Idx → EReal) (M : S10x384x128.Idx → EReal) (B : S1x1280.Idx → EReal) (i : S16x655360.Idx) :
    shapeCast S16x655360 (Yk A M B) shapeCasts_S8192x1280_S16x655360 i
      = Cert.Spec.banded A M B ⟨Cert.Spec.flat i / 1280, by have := Cert.Spec.flat_lt i; omega⟩
          ⟨Cert.Spec.flat i % 1280, Nat.mod_lt _ (by norm_num)⟩ := by
  have hf := Cert.Spec.flat_lt i
  refine (shapeCast_apply (Yk A M B) shapeCasts_S8192x1280_S16x655360 i
    (ix2 (⟨Cert.Spec.flat i / 1280, by omega⟩ : Fin 8192) (⟨Cert.Spec.flat i % 1280, Nat.mod_lt _ (by norm_num)⟩ : Fin 1280)) ?_).trans ?_
  · rw [Shape.rowMajor_val_two, Shape.rowMajor_val_two]
    show Cert.Spec.flat i / 1280 * 1280 + Cert.Spec.flat i % 1280 = (i 0).val * 655360 + (i 1).val
    unfold Cert.Spec.flat
    omega
  · rfl

/-- What the host line after the region leaves in the result buffer. -/
theorem tail_eq (c : Dev nD) :
    Pipeline.afterTail₀ cfgs (dats m) 0 (V0 m) [hostOps1] c main_v0
      = (fun i : S16x655360.Idx => Cert.Spec.banded (V m c main_call0_v0) (V m c main_call0_v39) (V m c main_call0_v43)
          ⟨Cert.Spec.flat i / 1280, by have := Cert.Spec.flat_lt i; omega⟩ ⟨Cert.Spec.flat i % 1280, Nat.mod_lt _ (by norm_num)⟩) := by
  have e : Pipeline.withArrays (cfgs 0).spec c (V0 m c) (fun w => (dats m 0 c).arrAt w (cfgs 0).N) (Proc.devRef .tc main_call0_v44)
      = Yk (V m c main_call0_v0) (V m c main_call0_v39) (V m c main_call0_v43) :=
    (Pipeline.withArrays_arr spec0 launch0.win.arr_inj c _ _ 3).trans (final m c)
  unfold Pipeline.afterTail₀
  show StableHlo.after hostOps1 _ (Proc.devRef .tc main_v0) = _
  after_results
  funext i
  show shapeCast S16x655360 (Pipeline.withArrays (cfgs 0).spec c (V0 m c) (fun w => (dats m 0 c).arrAt w (cfgs 0).N)
    (Proc.devRef .tc main_call0_v44)) shapeCasts_S8192x1280_S16x655360 i = _
  rw [e, Yk_reshape_at]

/-! ## The run, read -/

/-- Every weakly fair execution of the kernel program from a memory with zero counters terminates with the result buffer
    at the banded function of the three staged arrays, read row-major, and the arguments unchanged. -/
theorem run : θ_run (defs (F := Ideal)) (onTc (τ := τ) (main (F := Ideal))) ⟨m, fun _ => 0, ρ⟩ fun r => ∀ c : Dev nD,
      r.2.mem ((c.tc : Thread nD τ).loc main_v0)
        = (fun i : S16x655360.Idx => Cert.Spec.banded (Gen.V m c main_call0_v0) (Gen.V m c main_call0_v39) (Gen.V m c main_call0_v43)
            ⟨Cert.Spec.flat i / 1280, by have := Cert.Spec.flat_lt i; omega⟩ ⟨Cert.Spec.flat i % 1280, Nat.mod_lt _ (by norm_num)⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.IntWords.lean ====
/-
  Words of 32 bits that hold small natural numbers, and the host's integer idioms on them.

  For a divisor d > 0 the floored remainder and the floored quotient are computed from the truncating ones with a sign
  correction; an index into an axis of extent 10 is then wrapped when negative. On a word that holds a natural number
  v < 1536 the sign bit is clear, signed and unsigned division agree, and all three corrections are idle: the remainder
  chain gives the word of v % 10 and the quotient chain the word of v / 10.
-/
import Idealize.ShloMosaic.PureOps.Ideal

noncomputable section

namespace Cert.Words

open Idealize.ShloMosaic

/-- The divisor as the remainder idiom reads it: 10, replaced by 1 if it were 0. -/
def dW : BitVec 32 := Scalar.select (IntOp.cmpi .eq (10#32) (0#32)) (1#32) (10#32)

theorem dW_eq : dW = 10#32 := by decide

/-- Floored remainder by 10: the truncating remainder, plus the divisor when the signs differ and it is not zero. -/
def remW (x : BitVec 32) : BitVec 32 :=
  Scalar.select (IntOp.andi (IntOp.cmpi .ne (IntOp.cmpi .slt (IntOp.remsi .host x dW) 0#32) (IntOp.cmpi .slt dW 0#32))
    (IntOp.cmpi .ne (IntOp.remsi .host x dW) 0#32)) (IntOp.addi (IntOp.remsi .host x dW) dW) (IntOp.remsi .host x dW)

/-- A possibly negative index into an axis of extent 10, wrapped. -/
def wrapW (y : BitVec 32) : BitVec 32 := Scalar.select (IntOp.cmpi .slt y 0#32) (IntOp.addi y 10#32) y

/-- The sign of a word: 0, -1 or 1. -/
def sgnW (x : BitVec 32) : BitVec 32 := if x = 0 then 0 else if x.msb then -1 else 1

/-- Floored quotient by 10: the truncating quotient, less one when the signs differ and the remainder is not zero. -/
def fdivW (x : BitVec 32) : BitVec 32 :=
  Scalar.select (IntOp.andi (IntOp.cmpi .ne (sgnW x) (sgnW 10#32)) (IntOp.cmpi .ne (IntOp.remsi .host x 10#32) 0#32))
    (IntOp.subi (IntOp.divsi .host x 10#32) 1#32) (IntOp.divsi .host x 10#32)

/-- A small number's word has a clear sign bit. -/
theorem msb_ofNat {v : ℕ} (hv : v < 1536) : (BitVec.ofNat 32 v).msb = false := by
  rw [BitVec.msb_eq_false_iff_two_mul_lt, BitVec.toNat_ofNat]; omega

theorem not_corner (x : BitVec 32) : ¬ IntOp.SDivCorner x 10#32 := by
  rintro (h | ⟨_, h⟩) <;> exact absurd h (by decide)

/-- The truncating remainder of a small number's word by 10 is the word of the remainder. -/
theorem srem10 (v : ℕ) (hv : v < 1536) : IntOp.remsi .host (BitVec.ofNat 32 v) 10#32 = BitVec.ofNat 32 (v % 10) := by
  unfold IntOp.remsi; rw [if_neg (not_corner _)]
  have h : (BitVec.ofNat 32 v).srem 10#32 = BitVec.ofNat 32 v % 10#32 := by
    unfold BitVec.srem; rw [msb_ofNat hv]; rfl
  rw [h]
  apply BitVec.eq_of_toNat_eq
  rw [BitVec.toNat_umod, BitVec.toNat_ofNat, BitVec.toNat_ofNat, BitVec.toNat_ofNat]
  have h10 : (10 : ℕ) % 2 ^ 32 = 10 := by norm_num
  rw [h10]; omega

/-- The truncating quotient of a small number's word by 10 is the word of the quotient. -/
theorem sdiv10 (v : ℕ) (hv : v < 1536) : IntOp.divsi .host (BitVec.ofNat 32 v) 10#32 = BitVec.ofNat 32 (v / 10) := by
  unfold IntOp.divsi; rw [if_neg (not_corner _)]
  have h : (BitVec.ofNat 32 v).sdiv 10#32 = BitVec.ofNat 32 v / 10#32 := by
    unfold BitVec.sdiv; rw [msb_ofNat hv]; rfl
  rw [h]
  apply BitVec.eq_of_toNat_eq
  rw [BitVec.toNat_udiv, BitVec.toNat_ofNat, BitVec.toNat_ofNat, BitVec.toNat_ofNat]
  have h10 : (10 : ℕ) % 2 ^ 32 = 10 := by norm_num
  rw [h10]; omega

/-- On a remainder already in [0, 10) neither the sign correction nor the wrap does anything. -/
theorem idle_corrections : ∀ k : Fin 10,
    wrapW (Scalar.select (IntOp.andi (IntOp.cmpi .ne (IntOp.cmpi .slt (BitVec.ofNat 32 k.val) 0#32) (IntOp.cmpi .slt 10#32 0#32))
      (IntOp.cmpi .ne (BitVec.ofNat 32 k.val) 0#32)) (IntOp.addi (BitVec.ofNat 32 k.val) 10#32) (BitVec.ofNat 32 k.val))
      = BitVec.ofNat 32 k.val := by decide

/-- The wrapped floored remainder of a small number's word is the word of v % 10. -/
theorem wrap_rem_ofNat (v : ℕ) (hv : v < 1536) : wrapW (remW (BitVec.ofNat 32 v)) = BitVec.ofNat 32 (v % 10) := by
  unfold remW; rw [dW_eq, srem10 v hv]
  exact idle_corrections ⟨v % 10, Nat.mod_lt _ (by norm_num)⟩

/-- The floored quotient of a small number's word is the word of v / 10. -/
theorem fdiv_ofNat (v : ℕ) (hv : v < 1536) : fdivW (BitVec.ofNat 32 v) = BitVec.ofNat 32 (v / 10) := by
  unfold fdivW
  rw [sdiv10 v hv, srem10 v hv]
  rcases Nat.eq_zero_or_pos v with rfl | hpos
  · decide
  · have hne : BitVec.ofNat 32 v ≠ 0 := by
      intro h
      have h' := congrArg BitVec.toNat h
      rw [BitVec.toNat_ofNat] at h'
      simp at h'; omega
    have hs : sgnW (BitVec.ofNat 32 v) = 1#32 := by
      unfold sgnW; rw [if_neg hne, msb_ofNat hv]; rfl
    rw [hs]
    have hz : IntOp.cmpi .ne 1#32 (sgnW 10#32) = 0#1 := by decide
    rw [hz]
    show Scalar.select (0#1 &&& _) _ _ = _
    rw [BitVec.zero_and]; rfl

/-- A start index below 10 read as a signed integer and clamped into [0, 9] is itself. -/
theorem clamp_ofNat : ∀ v : Fin 10, min (BitVec.ofNat 32 v.val).toInt.toNat 9 = v.val := by decide

/-- A select on the equality of two small numbers' words is the `if` on the numbers. -/
theorem select_eq_ofNat {α : Type} (a b : ℕ) (ha : a < 4294967296) (hb : b < 4294967296) (A B : α) :
    Scalar.select (IntOp.cmpi .eq (BitVec.ofNat 32 a) (BitVec.ofNat 32 b)) A B = if a = b then A else B := by
  by_cases h : a = b
  · subst h; rw [if_pos rfl]
    have hc : IntOp.cmpi .eq (BitVec.ofNat 32 a) (BitVec.ofNat 32 a) = 1#1 := by
      unfold IntOp.cmpi; simp
    rw [hc]; rfl
  · rw [if_neg h]
    have hne : BitVec.ofNat 32 a ≠ BitVec.ofNat 32 b := by
      intro e
      have e' := congrArg BitVec.toNat e
      rw [BitVec.toNat_ofNat, BitVec.toNat_ofNat] at e'
      omega
    have hc : IntOp.cmpi .eq (BitVec.ofNat 32 a) (BitVec.ofNat 32 b) = 0#1 := by
      unfold IntOp.cmpi
      show BitVec.ofBool (BitVec.ofNat 32 a == BitVec.ofNat 32 b) = 0#1
      rw [beq_eq_false_iff_ne.mpr hne]; rfl
    rw [hc]; rfl

end Cert.Words

end
-- ==== Proof.HostEqs.lean ====
/-
  The arrays the host prepares before the kernel is launched, as equations between them.

  Each host operation writes one array from earlier ones. Cutting the list of operations just before a group and
  reading the group's last array in terms of the arrays the group starts from gives one equation per group:
  the window starts plus a lane offset (q), the tile base plus a lane (p), their floored remainders and quotients by 10,
  the gathered weights, the band mask, and the three re-laid arrays the kernel's windows stage. The integer chains are
  the scalar ones of the words module applied entry by entry.
-/
import proofs.«140140_g2000106001300788_pallasbulk_809_2_alg».proof.Proof.Gen.KernelIdeal.Frame
import proofs.«140140_g2000106001300788_pallasbulk_809_2_alg».proof.Proof.IntWords
import Idealize.ShloMosaic.Lib.StableHlo.Run

noncomputable section

namespace Cert.KernelIdeal.HostEqs

open Cert.KernelIdeal Cert.KernelIdeal.Gen Idealize.ShloMosaic Idealize.ShloMosaic.TcCoe Idealize.SL.Sem
open Idealize.ShloMosaic.StableHlo Cert.Words

variable {F : FTy → Type} [FloatOps F]
variable (m : (ℓ : Loc nD τ sig) → Buf (Elt F) ℓ) (c : Dev nD)

set_option hygiene false in
/-- Cut the operations before position `n`: what the earlier ones leave is an arbitrary valuation `W`, and the later ones
    are run from it. -/
local macro "cut_at " n:num : tactic => `(tactic| (
  rw [← List.take_append_drop $n (hostOps0 (F := F)), StableHlo.after_append]
  generalize StableHlo.after (List.take $n (hostOps0 (F := F))) (fun b => m (c, b)) = W
  simp only [hostOps0, List.drop_succ_cons, List.drop_zero]
  after_results_simp))

/-- The floored-quotient idiom on a whole array: the truncating quotient by the broadcast divisor 10, less one where the
    signs of entry and divisor differ and the remainder is not zero. -/
def fdivArr (s : Shape) (hb : S_.BroadcastsInDim s ![]) (x : IVec s 32) : IVec s 32 :=
  select (andi (cmpi .ne (signi x) (broadcastInDim s ![] hb (signi (constantI S_ 32 10#32))))
      (cmpi .ne (Host.remsi x (broadcastInDim s ![] hb (constantI S_ 32 10#32))) (broadcastInDim s ![] hb (constantI S_ 32 0#32))))
    (subi (Host.divsi x (broadcastInDim s ![] hb (constantI S_ 32 10#32))) (broadcastInDim s ![] hb (constantI S_ 32 1#32)))
    (Host.divsi x (broadcastInDim s ![] hb (constantI S_ 32 10#32)))

/-- Entry by entry it is the scalar chain. -/
theorem fdivArr_apply (s : Shape) (hb : S_.BroadcastsInDim s ![]) (x : IVec s 32) (i : s.Idx) : fdivArr s hb x i = fdivW (x i) := rfl

/-- x re-laid as dense rows of 1280. -/
theorem v0_eq : (V m c main_call0_v0 : S8192x1280.Idx → F .f32)
    = shapeCast S8192x1280 (V m c main_arg0 : S1048576x10.Idx → F .f32) shapeCasts_S1048576x10_S8192x1280 := by
  show StableHlo.after hostOps0 (fun b => m (c, b)) (Proc.devRef .tc main_call0_v0)
    = shapeCast S8192x1280 (StableHlo.after hostOps0 (fun b => m (c, b)) (Proc.devRef .tc main_arg0)) shapeCasts_S1048576x10_S8192x1280
  cut_at 0
  rfl

/-- q: the window start of tile j plus the offset κ inside the window. -/
theorem v6_eq : (V m c main_call0_v6 : S10x384x1.Idx → BitVec 32)
    = addi (broadcastInDim S10x384x1 ![0, 1, 2] bcast_S10x1x1_S10x384x1_0_1_2 (broadcastInDim S10x1x1 ![0] bcast_S10_S10x1x1_0 (fun i => lit0 (S10.rowMajor i))))
        (broadcastInDim S10x384x1 ![0, 1, 2] bcast_S1x384x1_S10x384x1_0_1_2 (broadcastInDim S1x384x1 ![1] bcast_S384_S1x384x1_1 (iotaInDim S384 32 0))) := by
  show StableHlo.after hostOps0 (fun b => m (c, b)) (Proc.devRef .tc main_call0_v6) = _
  cut_at 0
  rfl

/-- p: 128 times the tile number plus the lane. -/
theorem v15_eq : (V m c main_call0_v15 : S10x1x128.Idx → BitVec 32)
    = addi (broadcastInDim S10x1x128 ![0, 1, 2] bcast_S10x1x1_S10x1x128_0_1_2 (broadcastInDim S10x1x1 ![0] bcast_S10_S10x1x1_0
          (muli (broadcastInDim S10 ![] bcast_S_S10 (constantI S_ 32 128#32)) (iotaInDim S10 32 0))))
        (broadcastInDim S10x1x128 ![0, 1, 2] bcast_S1x1x128_S10x1x128_0_1_2 (broadcastInDim S1x1x128 ![2] bcast_S128_S1x1x128_2 (iotaInDim S128 32 0))) := by
  show StableHlo.after hostOps0 (fun b => m (c, b)) (Proc.devRef .tc main_call0_v15) = _
  cut_at 0
  rfl

/-- p's floored remainder by 10. -/
theorem v16_eq : (V m c main_call0_v16 : S10x1x128.Idx → BitVec 32) = fun i => remW ((V m c main_call0_v15 : S10x1x128.Idx → BitVec 32) i) := by
  show StableHlo.after hostOps0 (fun b => m (c, b)) (Proc.devRef .tc main_call0_v16)
    = fun i => remW (StableHlo.after hostOps0 (fun b => m (c, b)) (Proc.devRef .tc main_call0_v15) i)
  cut_at 18
  rfl

/-- q's floored remainder by 10. -/
theorem v17_eq : (V m c main_call0_v17 : S10x384x1.Idx → BitVec 32) = fun i => remW ((V m c main_call0_v6 : S10x384x1.Idx → BitVec 32) i) := by
  show StableHlo.after hostOps0 (fun b => m (c, b)) (Proc.devRef .tc main_call0_v17)
    = fun i => remW (StableHlo.after hostOps0 (fun b => m (c, b)) (Proc.devRef .tc main_call0_v6) i)
  cut_at 40
  rfl

/-- The row index into w, wrapped. -/
theorem v22_eq : (V m c main_call0_v22 : S10x1x128.Idx → BitVec 32) = fun i => wrapW ((V m c main_call0_v16 : S10x1x128.Idx → BitVec 32) i) := by
  show StableHlo.after hostOps0 (fun b => m (c, b)) (Proc.devRef .tc main_call0_v22)
    = fun i => wrapW (StableHlo.after hostOps0 (fun b => m (c, b)) (Proc.devRef .tc main_call0_v16) i)
  cut_at 62
  rfl

/-- The column index into w, wrapped. -/
theorem v27_eq : (V m c main_call0_v27 : S10x384x1.Idx → BitVec 32) = fun i => wrapW ((V m c main_call0_v17 : S10x384x1.Idx → BitVec 32) i) := by
  show StableHlo.after hostOps0 (fun b => m (c, b)) (Proc.devRef .tc main_call0_v27)
    = fun i => wrapW (StableHlo.after hostOps0 (fun b => m (c, b)) (Proc.devRef .tc main_call0_v17) i)
  cut_at 62
  rfl

/-- The gathered weights: w at the two index arrays, joined along a last axis of extent 2. -/
theorem v33_eq : (V m c main_call0_v33 : S10x384x128.Idx → F .f32)
    = Host.gather gather_S10x10_S10x384x128x2_S10x384x128_n_01_n_n_01_3_11 (V m c main_arg1 : S10x10.Idx → F .f32)
        (concatenate S10x384x128x2 3
          [⟨S10x384x128x1, broadcastInDim S10x384x128x1 ![0, 1, 2] bcast_S10x384x128_S10x384x128x1_0_1_2
              (broadcastInDim S10x384x128 ![0, 1, 2] bcast_S10x1x128_S10x384x128_0_1_2 (V m c main_call0_v22 : S10x1x128.Idx → BitVec 32))⟩,
           ⟨S10x384x128x1, broadcastInDim S10x384x128x1 ![0, 1, 2] bcast_S10x384x128_S10x384x128x1_0_1_2
              (broadcastInDim S10x384x128 ![0, 1, 2] bcast_S10x384x1_S10x384x128_0_1_2 (V m c main_call0_v27 : S10x384x1.Idx → BitVec 32))⟩]
          concatenates_S10x384x128x1_S10x384x128x1_S10x384x128x2_d3) := by
  show StableHlo.after hostOps0 (fun b => m (c, b)) (Proc.devRef .tc main_call0_v33)
    = Host.gather gather_S10x10_S10x384x128x2_S10x384x128_n_01_n_n_01_3_11 (StableHlo.after hostOps0 (fun b => m (c, b)) (Proc.devRef .tc main_arg1))
        (concatenate S10x384x128x2 3
          [⟨S10x384x128x1, broadcastInDim S10x384x128x1 ![0, 1, 2] bcast_S10x384x128_S10x384x128x1_0_1_2
              (broadcastInDim S10x384x128 ![0, 1, 2] bcast_S10x1x128_S10x384x128_0_1_2 (StableHlo.after hostOps0 (fun b => m (c, b)) (Proc.devRef .tc main_call0_v22)))⟩,
           ⟨S10x384x128x1, broadcastInDim S10x384x128x1 ![0, 1, 2] bcast_S10x384x128_S10x384x128x1_0_1_2
              (broadcastInDim S10x384x128 ![0, 1, 2] bcast_S10x384x1_S10x384x128_0_1_2 (StableHlo.after hostOps0 (fun b => m (c, b)) (Proc.devRef .tc main_call0_v27)))⟩]
          concatenates_S10x384x128x1_S10x384x128x1_S10x384x128x2_d3)
  cut_at 76
  rfl

/-- q's floored quotient by 10. -/
theorem v34_eq : (V m c main_call0_v34 : S10x384x1.Idx → BitVec 32) = fun i => fdivW ((V m c main_call0_v6 : S10x384x1.Idx → BitVec 32) i) := by
  have h : (V m c main_call0_v34 : S10x384x1.Idx → BitVec 32)
      = fdivArr S10x384x1 bcast_S_S10x384x1 (V m c main_call0_v6 : S10x384x1.Idx → BitVec 32) := by
    show StableHlo.after hostOps0 (fun b => m (c, b)) (Proc.devRef .tc main_call0_v34)
      = fdivArr S10x384x1 bcast_S_S10x384x1 (StableHlo.after hostOps0 (fun b => m (c, b)) (Proc.devRef .tc main_call0_v6))
    cut_at 82
    rfl
  rw [h]; funext i; exact fdivArr_apply _ _ _ i

/-- p's floored quotient by 10. -/
theorem v35_eq : (V m c main_call0_v35 : S10x1x128.Idx → BitVec 32) = fun i => fdivW ((V m c main_call0_v15 : S10x1x128.Idx → BitVec 32) i) := by
  have h : (V m c main_call0_v35 : S10x1x128.Idx → BitVec 32)
      = fdivArr S10x1x128 bcast_S_S10x1x128 (V m c main_call0_v15 : S10x1x128.Idx → BitVec 32) := by
    show StableHlo.after hostOps0 (fun b => m (c, b)) (Proc.devRef .tc main_call0_v35)
      = fdivArr S10x1x128 bcast_S_S10x1x128 (StableHlo.after hostOps0 (fun b => m (c, b)) (Proc.devRef .tc main_call0_v15))
    cut_at 100
    rfl
  rw [h]; funext i; exact fdivArr_apply _ _ _ i

/-- The band: the gathered weight where the two quotients agree, the zero word elsewhere. -/
theorem v39_eq : (V m c main_call0_v39 : S10x384x128.Idx → F .f32)
    = select (cmpi .eq (broadcastInDim S10x384x128 ![0, 1, 2] bcast_S10x384x1_S10x384x128_0_1_2 (V m c main_call0_v34 : S10x384x1.Idx → BitVec 32))
          (broadcastInDim S10x384x128 ![0, 1, 2] bcast_S10x1x128_S10x384x128_0_1_2 (V m c main_call0_v35 : S10x1x128.Idx → BitVec 32)))
        (V m c main_call0_v33 : S10x384x128.Idx → F .f32)
        (broadcastInDim S10x384x128 ![] bcast_S_S10x384x128 (constant (F := F) S_ .f32 0x00000000#32)) := by
  show StableHlo.after hostOps0 (fun b => m (c, b)) (Proc.devRef .tc main_call0_v39)
    = select (cmpi .eq (broadcastInDim S10x384x128 ![0, 1, 2] bcast_S10x384x1_S10x384x128_0_1_2 (StableHlo.after hostOps0 (fun b => m (c, b)) (Proc.devRef .tc main_call0_v34)))
          (broadcastInDim S10x384x128 ![0, 1, 2] bcast_S10x1x128_S10x384x128_0_1_2 (StableHlo.after hostOps0 (fun b => m (c, b)) (Proc.devRef .tc main_call0_v35))))
        (StableHlo.after hostOps0 (fun b => m (c, b)) (Proc.devRef .tc main_call0_v33))
        (broadcastInDim S10x384x128 ![] bcast_S_S10x384x128 (constant (F := F) S_ .f32 0x00000000#32))
  cut_at 118
  rfl

/-- The bias tiled 128 times into one dense row. -/
theorem v43_eq : (V m c main_call0_v43 : S1x1280.Idx → F .f32)
    = shapeCast S1x1280 (shapeCast S1280 (broadcastInDim S128x10 ![0, 1] bcast_S1x10_S128x10_0_1
        (shapeCast S1x10 (V m c main_arg2 : S10.Idx → F .f32) shapeCasts_S10_S1x10)) shapeCasts_S128x10_S1280) shapeCasts_S1280_S1x1280 := by
  show StableHlo.after hostOps0 (fun b => m (c, b)) (Proc.devRef .tc main_call0_v43)
    = shapeCast S1x1280 (shapeCast S1280 (broadcastInDim S128x10 ![0, 1] bcast_S1x10_S128x10_0_1
        (shapeCast S1x10 (StableHlo.after hostOps0 (fun b => m (c, b)) (Proc.devRef .tc main_arg2)) shapeCasts_S10_S1x10)) shapeCasts_S128x10_S1280) shapeCasts_S1280_S1x1280
  cut_at 125
  rfl

end Cert.KernelIdeal.HostEqs

end
-- ==== Proof.LibPointGather.lean ====
/-
  A gather of single elements of a matrix.

  A `stablehlo.gather` of an [R, C] operand whose start indices [A, B, D, 2] carry, on a last axis of extent 2, a row and
  a column, with both operand axes collapsed and slice sizes 1 — what `w[rows, cols]` with two integer index arrays of a
  common shape [A, B, D] lowers to. Result entry (a, b, e) is the operand at the row idx[a, b, e, 0] and the column
  idx[a, b, e, 1], each read as a signed integer and clamped into its axis.
-/
import Idealize.ShloMosaic.Lib.ValueIdx

noncomputable section

namespace Idealize.ShloMosaic.PointGather

open Idealize.ShloMosaic Idealize.ShloMosaic.ValueIdx

variable {α : Type}

/-- The dimension numbers of a two-index element gather; the well-formedness conditions are decided on a program's
    literal shapes. -/
abbrev pointDims (R C A B D : ℕ)
    (wf : GatherDims.WF ⟨2, ![R, C]⟩ ⟨4, ![A, B, D, 2]⟩ ⟨3, ![A, B, D]⟩ [] [0, 1] [] [0, 1] [] 3 ![1, 1]) :
    GatherDims ⟨2, ![R, C]⟩ ⟨4, ![A, B, D, 2]⟩ ⟨3, ![A, B, D]⟩ where
  offsetDims := []
  collapsedSliceDims := [0, 1]
  operandBatchingDims := []
  startIndicesBatchingDims := []
  startIndexMap := [0, 1]
  indexVectorDim := 3
  sliceSizes := ![1, 1]
  wf := wf

/-- THE GATHER READ AT (a, b, e): the operand at the two start-index components, each read signed and clamped. -/
theorem gather_point_apply {R C A B D w : ℕ} (hR : 0 < R) (hC : 0 < C)
    (wf : GatherDims.WF ⟨2, ![R, C]⟩ ⟨4, ![A, B, D, 2]⟩ ⟨3, ![A, B, D]⟩ [] [0, 1] [] [0, 1] [] 3 ![1, 1])
    (x : (⟨2, ![R, C]⟩ : Shape).Idx → α) (idx : IVec ⟨4, ![A, B, D, 2]⟩ w) (a : Fin A) (b : Fin B) (e : Fin D) :
    Host.gather (pointDims R C A B D wf) x idx (ix3 a b e)
      = x (ix2 (⟨min (idx (ix4 a b e (0 : Fin 2))).toInt.toNat (R - 1), by omega⟩ : Fin R)
               (⟨min (idx (ix4 a b e (1 : Fin 2))).toInt.toNat (C - 1), by omega⟩ : Fin C)) := by
  have m0 : (0 : Fin 2) ∈ ([0, 1] : List (Fin 2)) := by decide
  have m1 : (1 : Fin 2) ∈ ([0, 1] : List (Fin 2)) := by decide
  unfold Host.gather
  congr 1
  funext ax
  refine Fin.ext ?_
  match ax with
  | ⟨0, _⟩ =>
    show (pointDims R C A B D wf).start (ix3 a b e) idx 0 + (pointDims R C A B D wf).batchCoord (ix3 a b e) 0
        + (pointDims R C A B D wf).offCoord (ix3 a b e) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 2) ∈ (pointDims R C A B D wf).startIndexMap from m0)]
    have hsi : (pointDims R C A B D wf).siIdx (ix3 a b e) ⟨List.idxOf (0 : Fin 2) (pointDims R C A B D wf).startIndexMap,
        List.idxOf_lt_length_iff.2 m0⟩ = ix4 a b e (0 : Fin 2) := by
      funext q; refine Fin.ext ?_
      match q with
      | ⟨0, _⟩ => rfl
      | ⟨1, _⟩ => rfl
      | ⟨2, _⟩ => rfl
      | ⟨3, _⟩ => rfl
    rw [hsi]
    rfl
  | ⟨1, _⟩ =>
    show (pointDims R C A B D wf).start (ix3 a b e) idx 1 + (pointDims R C A B D wf).batchCoord (ix3 a b e) 1
        + (pointDims R C A B D wf).offCoord (ix3 a b e) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 2) ∈ (pointDims R C A B D wf).startIndexMap from m1)]
    have hsi : (pointDims R C A B D wf).siIdx (ix3 a b e) ⟨List.idxOf (1 : Fin 2) (pointDims R C A B D wf).startIndexMap,
        List.idxOf_lt_length_iff.2 m1⟩ = ix4 a b e (1 : Fin 2) := by
      funext q; refine Fin.ext ?_
      match q with
      | ⟨0, _⟩ => rfl
      | ⟨1, _⟩ => rfl
      | ⟨2, _⟩ => rfl
      | ⟨3, _⟩ => rfl
    rw [hsi]
    rfl

end Idealize.ShloMosaic.PointGather

end
-- ==== Proof.HostPoint.lean ====
/-
  The host-prepared arrays read entry by entry.

  With q = (window start of tile j) + κ and p = 128·j + n, both below 1280: the index arrays hold the words of p % 10 and
  q % 10, the quotient arrays the words of p / 10 and q / 10, the gathered array holds w(p % 10, q % 10), and the band
  matrix holds that weight where q / 10 = p / 10 and zero elsewhere. The re-laid x at dense row R, lane q is x at flat
  position 1280·R + q, and the tiled bias at lane cc is b(cc % 10).
-/
import proofs.«140140_g2000106001300788_pallasbulk_809_2_alg».proof.Proof.HostEqs
import proofs.«140140_g2000106001300788_pallasbulk_809_2_alg».proof.Proof.LibPointGather
import proofs.«140140_g2000106001300788_pallasbulk_809_2_alg».proof.Proof.KSpec
import Idealize.ShloMosaic.Lib.Pipeline.Value
import Idealize.ShloMosaic.Lib.ValueIdx
import Idealize.ShloMosaic.PureOps.Ideal.Laws

noncomputable section

namespace Cert.KernelIdeal.HostPoint

open Cert.KernelIdeal Cert.KernelIdeal.Gen Cert.KernelIdeal.HostEqs Idealize.ShloMosaic Idealize.ShloMosaic.TcCoe Idealize.SL.Sem
open Idealize.ShloMosaic.ValueIdx Idealize.ShloMosaic.PointGather Cert.Words
open Cert.Spec (startN startN_le)

/-! ## Broadcasts read at coordinates -/

section Layout
variable {α : Type}

theorem b_s (s : Shape) (h : S_.BroadcastsInDim s ![]) (x : S_.Idx → α) (i : s.Idx) : broadcastInDim s ![] h x i = x ix0 :=
  broadcastInDim_apply _ _ _ _ _ (fun a => a.elim0)

theorem b_10_1011 (h : S10.BroadcastsInDim S10x1x1 ![0]) (x : S10.Idx → α) (j : Fin 10) :
    broadcastInDim S10x1x1 ![0] h x (ix3 j (0 : Fin 1) (0 : Fin 1)) = x (ix1 j) :=
  broadcastInDim_apply _ _ _ _ _ (fun a => match a with | ⟨0, _⟩ => rfl)

theorem b_1011_103841 (h : S10x1x1.BroadcastsInDim S10x384x1 ![0, 1, 2]) (x : S10x1x1.Idx → α) (j : Fin 10) (κ : Fin 384) :
    broadcastInDim S10x384x1 ![0, 1, 2] h x (ix3 j κ (0 : Fin 1)) = x (ix3 j (0 : Fin 1) (0 : Fin 1)) :=
  broadcastInDim_apply _ _ _ _ _ (fun a => match a with | ⟨0, _⟩ => rfl | ⟨1, _⟩ => rfl | ⟨2, _⟩ => rfl)

theorem b_384_13841 (h : S384.BroadcastsInDim S1x384x1 ![1]) (x : S384.Idx → α) (κ : Fin 384) :
    broadcastInDim S1x384x1 ![1] h x (ix3 (0 : Fin 1) κ (0 : Fin 1)) = x (ix1 κ) :=
  broadcastInDim_apply _ _ _ _ _ (fun a => match a with | ⟨0, _⟩ => rfl)

theorem b_13841_103841 (h : S1x384x1.BroadcastsInDim S10x384x1 ![0, 1, 2]) (x : S1x384x1.Idx → α) (j : Fin 10) (κ : Fin 384) :
    broadcastInDim S10x384x1 ![0, 1, 2] h x (ix3 j κ (0 : Fin 1)) = x (ix3 (0 : Fin 1) κ (0 : Fin 1)) :=
  broadcastInDim_apply _ _ _ _ _ (fun a => match a with | ⟨0, _⟩ => rfl | ⟨1, _⟩ => rfl | ⟨2, _⟩ => rfl)

theorem b_1011_101128 (h : S10x1x1.BroadcastsInDim S10x1x128 ![0, 1, 2]) (x : S10x1x1.Idx → α) (j : Fin 10) (n : Fin 128) :
    broadcastInDim S10x1x128 ![0, 1, 2] h x (ix3 j (0 : Fin 1) n) = x (ix3 j (0 : Fin 1) (0 : Fin 1)) :=
  broadcastInDim_apply _ _ _ _ _ (fun a => match a with | ⟨0, _⟩ => rfl | ⟨1, _⟩ => rfl | ⟨2, _⟩ => rfl)

theorem b_128_11128 (h : S128.BroadcastsInDim S1x1x128 ![2]) (x : S128.Idx → α) (n : Fin 128) :
    broadcastInDim S1x1x128 ![2] h x (ix3 (0 : Fin 1) (0 : Fin 1) n) = x (ix1 n) :=
  broadcastInDim_apply _ _ _ _ _ (fun a => match a with | ⟨0, _⟩ => rfl)

theorem b_11128_101128 (h : S1x1x128.BroadcastsInDim S10x1x128 ![0, 1, 2]) (x : S1x1x128.Idx → α) (j : Fin 10) (n : Fin 128) :
    broadcastInDim S10x1x128 ![0, 1, 2] h x (ix3 j (0 : Fin 1) n) = x (ix3 (0 : Fin 1) (0 : Fin 1) n) :=
  broadcastInDim_apply _ _ _ _ _ (fun a => match a with | ⟨0, _⟩ => rfl | ⟨1, _⟩ => rfl | ⟨2, _⟩ => rfl)

theorem b_101128_10384128 (h : S10x1x128.BroadcastsInDim S10x384x128 ![0, 1, 2]) (x : S10x1x128.Idx → α) (j : Fin 10) (κ : Fin 384) (n : Fin 128) :
    broadcastInDim S10x384x128 ![0, 1, 2] h x (ix3 j κ n) = x (ix3 j (0 : Fin 1) n) :=
  broadcastInDim_apply _ _ _ _ _ (fun a => match a with | ⟨0, _⟩ => rfl | ⟨1, _⟩ => rfl | ⟨2, _⟩ => rfl)

theorem b_103841_10384128 (h : S10x384x1.BroadcastsInDim S10x384x128 ![0, 1, 2]) (x : S10x384x1.Idx → α) (j : Fin 10) (κ : Fin 384) (n : Fin 128) :
    broadcastInDim S10x384x128 ![0, 1, 2] h x (ix3 j κ n) = x (ix3 j κ (0 : Fin 1)) :=
  broadcastInDim_apply _ _ _ _ _ (fun a => match a with | ⟨0, _⟩ => rfl | ⟨1, _⟩ => rfl | ⟨2, _⟩ => rfl)

theorem b_10384128_103841281 (h : S10x384x128.BroadcastsInDim S10x384x128x1 ![0, 1, 2]) (x : S10x384x128.Idx → α)
    (j : Fin 10) (κ : Fin 384) (n : Fin 128) :
    broadcastInDim S10x384x128x1 ![0, 1, 2] h x (ix4 j κ n (0 : Fin 1)) = x (ix3 j κ n) :=
  broadcastInDim_apply _ _ _ _ _ (fun a => match a with | ⟨0, _⟩ => rfl | ⟨1, _⟩ => rfl | ⟨2, _⟩ => rfl)

theorem b_110_12810 (h : S1x10.BroadcastsInDim S128x10 ![0, 1]) (x : S1x10.Idx → α) (g : Fin 128) (k : Fin 10) :
    broadcastInDim S128x10 ![0, 1] h x (ix2 g k) = x (ix2 (0 : Fin 1) k) :=
  broadcastInDim_apply _ _ _ _ _ (fun a => match a with | ⟨0, _⟩ => rfl | ⟨1, _⟩ => rfl)

/-- Two rank-2 indices with equal coordinates are equal. -/
theorem ix2_ext {n0 n1 : ℕ} {a a' : Fin n0} {b b' : Fin n1} (ha : a.val = a'.val) (hb : b.val = b'.val) : ix2 a b = ix2 a' b' := by
  rw [Fin.ext ha, Fin.ext hb]

/-- The joined index array at last coordinate 0 is its first piece. -/
theorem concat_at0 (P1 P2 : S10x384x128x1.Idx → α) (h : Shape.Concatenates [S10x384x128x1, S10x384x128x1] S10x384x128x2 3)
    (j : Fin 10) (κ : Fin 384) (n : Fin 128) :
    concatenate S10x384x128x2 3 [⟨S10x384x128x1, P1⟩, ⟨S10x384x128x1, P2⟩] h (ix4 j κ n (0 : Fin 2)) = P1 (ix4 j κ n (0 : Fin 1)) :=
  concatenate_pair_apply_left (t := S10x384x128x2) (s₁ := S10x384x128x1) (s₂ := S10x384x128x1) 3 P1 P2 h (ix4 j κ n (0 : Fin 2)) rfl
    (ix4 j κ n (0 : Fin 1)) (fun b => match b with | ⟨0, _⟩ => rfl | ⟨1, _⟩ => rfl | ⟨2, _⟩ => rfl | ⟨3, _⟩ => rfl)

/-- The joined index array at last coordinate 1 is its second piece. -/
theorem concat_at1 (P1 P2 : S10x384x128x1.Idx → α) (h : Shape.Concatenates [S10x384x128x1, S10x384x128x1] S10x384x128x2 3)
    (j : Fin 10) (κ : Fin 384) (n : Fin 128) :
    concatenate S10x384x128x2 3 [⟨S10x384x128x1, P1⟩, ⟨S10x384x128x1, P2⟩] h (ix4 j κ n (1 : Fin 2)) = P2 (ix4 j κ n (0 : Fin 1)) :=
  concatenate_pair_apply_right (t := S10x384x128x2) (s₁ := S10x384x128x1) (s₂ := S10x384x128x1) 3 P1 P2 h (ix4 j κ n (1 : Fin 2)) rfl rfl
    (ix4 j κ n (0 : Fin 1))
    (fun b hb => match b, hb with
      | ⟨0, _⟩, _ => rfl | ⟨1, _⟩, _ => rfl | ⟨2, _⟩, _ => rfl | ⟨3, _⟩, hb => absurd rfl hb) rfl

end Layout

/-! ## The integer arrays -/

section Ints
variable {F : FTy → Type} [FloatOps F]
variable (m : (ℓ : Loc nD τ sig) → Buf (Elt F) ℓ) (c : Dev nD)

/-- The table of window starts, as words. -/
theorem lit0_eq : ∀ j : Fin 10, lit0 j = BitVec.ofNat 32 (startN j) := by decide

/-- q at (j, κ): the word of the window start plus κ. -/
theorem v6_at (j : Fin 10) (κ : Fin 384) :
    (V m c main_call0_v6 : S10x384x1.Idx → BitVec 32) (ix3 j κ (0 : Fin 1)) = BitVec.ofNat 32 (startN j + κ.val) := by
  rw [v6_eq]
  show IntOp.addi (broadcastInDim S10x384x1 ![0, 1, 2] _ (broadcastInDim S10x1x1 ![0] _ (fun i => lit0 (S10.rowMajor i))) (ix3 j κ (0 : Fin 1)))
      (broadcastInDim S10x384x1 ![0, 1, 2] _ (broadcastInDim S1x384x1 ![1] _ (iotaInDim S384 32 0)) (ix3 j κ (0 : Fin 1))) = _
  rw [b_1011_103841, b_10_1011, b_13841_103841, b_384_13841]
  have hr : S10.rowMajor (ix1 j) = j := Fin.ext (Shape.rowMajor_val_one _)
  show lit0 (S10.rowMajor (ix1 j)) + BitVec.ofNat 32 κ.val = _
  rw [hr, lit0_eq, BitVec.ofNat_add]

/-- p at (j, n): the word of 128·j + n. -/
theorem v15_at (j : Fin 10) (n : Fin 128) :
    (V m c main_call0_v15 : S10x1x128.Idx → BitVec 32) (ix3 j (0 : Fin 1) n) = BitVec.ofNat 32 (128 * j.val + n.val) := by
  rw [v15_eq]
  show IntOp.addi (broadcastInDim S10x1x128 ![0, 1, 2] _ (broadcastInDim S10x1x1 ![0] _
        (muli (broadcastInDim S10 ![] _ (constantI S_ 32 128#32)) (iotaInDim S10 32 0))) (ix3 j (0 : Fin 1) n))
      (broadcastInDim S10x1x128 ![0, 1, 2] _ (broadcastInDim S1x1x128 ![2] _ (iotaInDim S128 32 0)) (ix3 j (0 : Fin 1) n)) = _
  rw [b_1011_101128, b_10_1011, b_11128_101128, b_128_11128]
  show BitVec.ofNat 32 128 * BitVec.ofNat 32 j.val + BitVec.ofNat 32 n.val = _
  rw [BitVec.ofNat_add, BitVec.ofNat_mul]

theorem q_lt (j : Fin 10) (κ : Fin 384) : startN j + κ.val < 1280 := by
  have := startN_le j; have := κ.isLt; omega

theorem p_lt (j : Fin 10) (n : Fin 128) : 128 * j.val + n.val < 1280 := by
  have := j.isLt; have := n.isLt; omega

/-- The row index into w at (j, n): the word of p % 10. -/
theorem v22_at (j : Fin 10) (n : Fin 128) :
    (V m c main_call0_v22 : S10x1x128.Idx → BitVec 32) (ix3 j (0 : Fin 1) n) = BitVec.ofNat 32 ((128 * j.val + n.val) % 10) := by
  rw [v22_eq]
  show wrapW ((V m c main_call0_v16 : S10x1x128.Idx → BitVec 32) (ix3 j (0 : Fin 1) n)) = _
  rw [v16_eq]
  show wrapW (remW ((V m c main_call0_v15 : S10x1x128.Idx → BitVec 32) (ix3 j (0 : Fin 1) n))) = _
  rw [v15_at]
  exact wrap_rem_ofNat _ (by have := p_lt j n; omega)

/-- The column index into w at (j, κ): the word of q % 10. -/
theorem v27_at (j : Fin 10) (κ : Fin 384) :
    (V m c main_call0_v27 : S10x384x1.Idx → BitVec 32) (ix3 j κ (0 : Fin 1)) = BitVec.ofNat 32 ((startN j + κ.val) % 10) := by
  rw [v27_eq]
  show wrapW ((V m c main_call0_v17 : S10x384x1.Idx → BitVec 32) (ix3 j κ (0 : Fin 1))) = _
  rw [v17_eq]
  show wrapW (remW ((V m c main_call0_v6 : S10x384x1.Idx → BitVec 32) (ix3 j κ (0 : Fin 1)))) = _
  rw [v6_at]
  exact wrap_rem_ofNat _ (by have := q_lt j κ; omega)

/-- q / 10 at (j, κ). -/
theorem v34_at (j : Fin 10) (κ : Fin 384) :
    (V m c main_call0_v34 : S10x384x1.Idx → BitVec 32) (ix3 j κ (0 : Fin 1)) = BitVec.ofNat 32 ((startN j + κ.val) / 10) := by
  rw [v34_eq]
  show fdivW ((V m c main_call0_v6 : S10x384x1.Idx → BitVec 32) (ix3 j κ (0 : Fin 1))) = _
  rw [v6_at]
  exact fdiv_ofNat _ (by have := q_lt j κ; omega)

/-- p / 10 at (j, n). -/
theorem v35_at (j : Fin 10) (n : Fin 128) :
    (V m c main_call0_v35 : S10x1x128.Idx → BitVec 32) (ix3 j (0 : Fin 1) n) = BitVec.ofNat 32 ((128 * j.val + n.val) / 10) := by
  rw [v35_eq]
  show fdivW ((V m c main_call0_v15 : S10x1x128.Idx → BitVec 32) (ix3 j (0 : Fin 1) n)) = _
  rw [v15_at]
  exact fdiv_ofNat _ (by have := p_lt j n; omega)

/-- The gathered weight at (j, κ, n): w at row p % 10, column q % 10. -/
theorem v33_at (j : Fin 10) (κ : Fin 384) (n : Fin 128) :
    (V m c main_call0_v33 : S10x384x128.Idx → F .f32) (ix3 j κ n)
      = (V m c main_arg1 : S10x10.Idx → F .f32) (ix2 (⟨(128 * j.val + n.val) % 10, Nat.mod_lt _ (by norm_num)⟩ : Fin 10)
          (⟨(startN j + κ.val) % 10, Nat.mod_lt _ (by norm_num)⟩ : Fin 10)) := by
  rw [v33_eq]
  show Host.gather (pointDims 10 10 10 384 128 gather_S10x10_S10x384x128x2_S10x384x128_n_01_n_n_01_3_11_wf) _ _ (ix3 j κ n) = _
  rw [gather_point_apply (by norm_num) (by norm_num)]
  refine congrArg (V m c main_arg1 : S10x10.Idx → F .f32) (ix2_ext ?_ ?_)
  · dsimp only
    rw [concat_at0, b_10384128_103841281, b_101128_10384128, v22_at]
    exact clamp_ofNat ⟨(128 * j.val + n.val) % 10, Nat.mod_lt _ (by norm_num)⟩
  · dsimp only
    rw [concat_at1, b_10384128_103841281, b_103841_10384128, v27_at]
    exact clamp_ofNat ⟨(startN j + κ.val) % 10, Nat.mod_lt _ (by norm_num)⟩

end Ints

/-! ## The three staged arrays, on the extended reals -/

section Staged
variable (m : (ℓ : Loc nD τ sig) → Buf (Elt Ideal) ℓ) (c : Dev nD)

/-- THE BAND MATRIX at (j, κ, n): w(p % 10, q % 10) where input lane q and output lane p belong to the same row of x,
    zero elsewhere. -/
theorem v39_at (j : Fin 10) (κ : Fin 384) (n : Fin 128) :
    (V m c main_call0_v39 : S10x384x128.Idx → EReal) (ix3 j κ n)
      = (if (startN j + κ.val) / 10 = (128 * j.val + n.val) / 10 then
          (V m c main_arg1 : S10x10.Idx → EReal) (ix2 (⟨(128 * j.val + n.val) % 10, Nat.mod_lt _ (by norm_num)⟩ : Fin 10)
            (⟨(startN j + κ.val) % 10, Nat.mod_lt _ (by norm_num)⟩ : Fin 10))
        else (0 : EReal) : EReal) := by
  rw [v39_eq]
  show Scalar.select (IntOp.cmpi .eq
        (broadcastInDim S10x384x128 ![0, 1, 2] _ (V m c main_call0_v34 : S10x384x1.Idx → BitVec 32) (ix3 j κ n))
        (broadcastInDim S10x384x128 ![0, 1, 2] _ (V m c main_call0_v35 : S10x1x128.Idx → BitVec 32) (ix3 j κ n)))
      ((V m c main_call0_v33 : S10x384x128.Idx → EReal) (ix3 j κ n))
      (broadcastInDim S10x384x128 ![] _ (constant (F := Ideal) S_ .f32 0x00000000#32) (ix3 j κ n)) = _
  rw [b_103841_10384128, b_101128_10384128, v34_at, v35_at, v33_at, b_s,
    select_eq_ofNat _ _ (by have := q_lt j κ; omega) (by have := p_lt j n; omega)]
  show (if _ then _ else Ideal.ofBits .f32 0x00000000#32 : EReal) = _
  rw [Ideal.ofBits_zero_f32]

/-- x re-laid: dense row R, lane q is x at flat position 1280·R + q. -/
theorem v0_at (R : Fin 8192) (q : Fin 1280) :
    (V m c main_call0_v0 : S8192x1280.Idx → EReal) (ix2 R q)
      = (V m c main_arg0 : S1048576x10.Idx → EReal) (ix2 (⟨(1280 * R.val + q.val) / 10, by have := R.isLt; have := q.isLt; omega⟩ : Fin 1048576)
          (⟨(1280 * R.val + q.val) % 10, Nat.mod_lt _ (by norm_num)⟩ : Fin 10)) := by
  rw [v0_eq]
  refine shapeCast_apply (s := S1048576x10) (t := S8192x1280) _ _ _ _ ?_
  show (S1048576x10.rowMajor (ix2 _ _)).val = (S8192x1280.rowMajor (ix2 R q)).val
  rw [Shape.rowMajor_val_two, Shape.rowMajor_val_two]
  show (1280 * R.val + q.val) / 10 * 10 + (1280 * R.val + q.val) % 10 = R.val * 1280 + q.val
  omega

/-- The tiled bias: lane cc holds b(cc % 10). -/
theorem v43_at (cc : Fin 1280) :
    (V m c main_call0_v43 : S1x1280.Idx → EReal) (ix2 (0 : Fin 1) cc)
      = (V m c main_arg2 : S10.Idx → EReal) (ix1 (⟨cc.val % 10, Nat.mod_lt _ (by norm_num)⟩ : Fin 10)) := by
  rw [v43_eq]
  rw [shapeCast_apply _ _ (ix2 (0 : Fin 1) cc) (ix1 cc) (by
      rw [Shape.rowMajor_val_one, Shape.rowMajor_val_two]; show cc.val = 0 * 1280 + cc.val; omega),
    shapeCast_apply _ _ (ix1 cc) (ix2 (⟨cc.val / 10, by have := cc.isLt; omega⟩ : Fin 128) (⟨cc.val % 10, Nat.mod_lt _ (by norm_num)⟩ : Fin 10)) (by
      rw [Shape.rowMajor_val_two, Shape.rowMajor_val_one]; show cc.val / 10 * 10 + cc.val % 10 = cc.val; omega),
    b_110_12810,
    shapeCast_apply (s := S10) (t := S1x10) _ _ (ix2 (0 : Fin 1) (⟨cc.val % 10, Nat.mod_lt _ (by norm_num)⟩ : Fin 10)) (ix1 (⟨cc.val % 10, Nat.mod_lt _ (by norm_num)⟩ : Fin 10)) (by
      show (S10.rowMajor (ix1 _)).val = (S1x10.rowMajor (ix2 _ _)).val
      rw [Shape.rowMajor_val_one, Shape.rowMajor_val_two]; show cc.val % 10 = 0 * 10 + cc.val % 10; omega)]

end Staged

end Cert.KernelIdeal.HostPoint

end
-- ==== Proof.BandLaw.lean ====
/-
  The banded product is the linear layer.

  Output lane p = 128·j + n of a dense row R belongs to row 128·R + p / 10 of x, feature p % 10. Among the 384 input lanes
  q of tile j's window the band matrix is zero except on the ten lanes q = 10·(p / 10) + k of that same row of x, where it
  holds w(p % 10, k); all ten lie inside the window. So the 384-term product collapses to the ten-term product of the
  linear layer. The collapse uses only that a product with zero is zero and that a finite sum may be re-indexed: it
  holds on the extended reals without any finiteness.

  Stated over arbitrary arrays X2 (x re-laid), M (band matrices), B2 (tiled bias) and the arguments x, w, b, under the
  three entrywise descriptions of X2, M and B2 in terms of x, w and b.
-/
import proofs.«140140_g2000106001300788_pallasbulk_809_2_alg».proof.Proof.KSpec

noncomputable section

open scoped BigOperators

namespace Cert.Spec

open Idealize.ShloMosaic Idealize.ShloMosaic.ValueIdx

/-- Two rank-2 indices with equal coordinates are equal. -/
theorem ix2_congr {n0 n1 : ℕ} {a a' : Fin n0} {b b' : Fin n1} (ha : a.val = a'.val) (hb : b.val = b'.val) : ix2 a b = ix2 a' b' := by
  rw [Fin.ext ha, Fin.ext hb]

/-- Every tile's window contains the ten input lanes of each row of x that its output lanes belong to. -/
theorem window_facts : ∀ j : Fin 10, (startN j = 0 ∨ startN j + 9 ≤ 128 * j.val)
    ∧ (128 * j.val + 137 ≤ startN j + 384 ∨ startN j + 384 = 1280) := by decide

theorem window_lo (j : Fin 10) (n : Fin 128) : startN j ≤ 10 * ((128 * j.val + n.val) / 10) := by
  have := (window_facts j).1; omega

theorem window_hi (j : Fin 10) (n : Fin 128) : 10 * ((128 * j.val + n.val) / 10) + 10 ≤ startN j + 384 := by
  have := (window_facts j).2; have := j.isLt; have := n.isLt; omega

theorem q_lt' (j : Fin 10) (κ : Fin 384) : startN j + κ.val < 1280 := by
  have := startN_le j; have := κ.isLt; omega

theorem p_lt' (j : Fin 10) (n : Fin 128) : 128 * j.val + n.val < 1280 := by
  have := j.isLt; have := n.isLt; omega

section Law

variable (X2 : SX2.Idx → EReal) (M : SM.Idx → EReal) (B2 : SB2.Idx → EReal)
variable (x : SX.Idx → EReal) (w : SW.Idx → EReal) (b : SB.Idx → EReal)
-- The band matrix: w(p % 10, q % 10) where input lane q and output lane p belong to the same row of x, zero elsewhere.
variable (hM : ∀ (j : Fin 10) (κ : Fin 384) (n : Fin 128), M (ix3 j κ n)
    = if (startN j + κ.val) / 10 = (128 * j.val + n.val) / 10 then
        w (ix2 (⟨(128 * j.val + n.val) % 10, Nat.mod_lt _ (by norm_num)⟩ : Fin 10) (⟨(startN j + κ.val) % 10, Nat.mod_lt _ (by norm_num)⟩ : Fin 10))
      else 0)
-- x re-laid: dense row R, lane q is x at flat position 1280·R + q.
variable (hX : ∀ (R : Fin 8192) (q : Fin 1280), X2 (ix2 R q)
    = x (ix2 (⟨(1280 * R.val + q.val) / 10, by have := R.isLt; have := q.isLt; omega⟩ : Fin 1048576)
        (⟨(1280 * R.val + q.val) % 10, Nat.mod_lt _ (by norm_num)⟩ : Fin 10)))
-- The tiled bias: lane cc holds b(cc % 10).
variable (hB : ∀ cc : Fin 1280, B2 (ix2 (0 : Fin 1) cc) = b (ix1 (⟨cc.val % 10, Nat.mod_lt _ (by norm_num)⟩ : Fin 10)))

include hM hX in
/-- One output entry's 384-term product against the band matrix is the ten-term product of its row of x with its row of w. -/
theorem band_row (R : Fin 8192) (j : Fin 10) (n : Fin 128) :
    (∑ κ : Fin 384, X2 (ix2 R (⟨startN j + κ.val, q_lt' j κ⟩ : Fin 1280)) * M (ix3 j κ n))
      = ∑ k : Fin 10, x (ix2 (⟨128 * R.val + (128 * j.val + n.val) / 10, by have := R.isLt; have := p_lt' j n; omega⟩ : Fin 1048576) k)
          * w (ix2 (⟨(128 * j.val + n.val) % 10, Nat.mod_lt _ (by norm_num)⟩ : Fin 10) k) := by
  have hA : ∀ κ : Fin 384, X2 (ix2 R (⟨startN j + κ.val, q_lt' j κ⟩ : Fin 1280)) * M (ix3 j κ n)
      = if (startN j + κ.val) / 10 = (128 * j.val + n.val) / 10 then
          x (ix2 (⟨(1280 * R.val + (startN j + κ.val)) / 10, by have := R.isLt; have := q_lt' j κ; omega⟩ : Fin 1048576)
              (⟨(1280 * R.val + (startN j + κ.val)) % 10, Nat.mod_lt _ (by norm_num)⟩ : Fin 10))
          * w (ix2 (⟨(128 * j.val + n.val) % 10, Nat.mod_lt _ (by norm_num)⟩ : Fin 10)
              (⟨(startN j + κ.val) % 10, Nat.mod_lt _ (by norm_num)⟩ : Fin 10))
        else 0 := by
    intro κ
    rw [hM, hX, mul_ite, mul_zero]
  rw [Finset.sum_congr rfl (fun κ _ => hA κ)]
  have hlo := window_lo j n
  have hhi := window_hi j n
  refine sum_ite_eq_of_enum (fun κ : Fin 384 => (startN j + κ.val) / 10 = (128 * j.val + n.val) / 10) _ _
    (fun k : Fin 10 => (⟨10 * ((128 * j.val + n.val) / 10) + k.val - startN j, by have := k.isLt; omega⟩ : Fin 384)) ?_ ?_ ?_ ?_
  · intro a b' h
    have h' : 10 * ((128 * j.val + n.val) / 10) + a.val - startN j = 10 * ((128 * j.val + n.val) / 10) + b'.val - startN j :=
      congrArg Fin.val h
    apply Fin.ext
    have := a.isLt; have := b'.isLt; omega
  · intro k
    show (startN j + (10 * ((128 * j.val + n.val) / 10) + k.val - startN j)) / 10 = (128 * j.val + n.val) / 10
    have := k.isLt; omega
  · intro κ hκ
    have hκ' : (startN j + κ.val) / 10 = (128 * j.val + n.val) / 10 := hκ
    refine ⟨⟨(startN j + κ.val) % 10, Nat.mod_lt _ (by norm_num)⟩, ?_⟩
    apply Fin.ext
    show 10 * ((128 * j.val + n.val) / 10) + (startN j + κ.val) % 10 - startN j = κ.val
    omega
  · intro k
    have hk := k.isLt
    have hq : startN j + (10 * ((128 * j.val + n.val) / 10) + k.val - startN j) = 10 * ((128 * j.val + n.val) / 10) + k.val := by omega
    refine congrArg₂ (· * ·) (congrArg x (ix2_congr ?_ ?_)) (congrArg w (ix2_congr rfl ?_))
    · show (1280 * R.val + (startN j + (10 * ((128 * j.val + n.val) / 10) + k.val - startN j))) / 10 = 128 * R.val + (128 * j.val + n.val) / 10
      rw [hq]; omega
    · show (1280 * R.val + (startN j + (10 * ((128 * j.val + n.val) / 10) + k.val - startN j))) % 10 = k.val
      rw [hq]; omega
    · show (startN j + (10 * ((128 * j.val + n.val) / 10) + k.val - startN j)) % 10 = k.val
      rw [hq]; omega

include hM hX hB in
/-- An entry of the banded product is the linear layer's entry. -/
theorem banded_eq_lin (R : Fin 8192) (cc : Fin 1280) :
    banded X2 M B2 R cc
      = lin x w b (⟨128 * R.val + cc.val / 10, by have := R.isLt; have := cc.isLt; omega⟩ : Fin 1048576)
          (⟨cc.val % 10, Nat.mod_lt _ (by norm_num)⟩ : Fin 10) := by
  have hcc := cc.isLt
  have hp : 128 * (cc.val / 128) + cc.val % 128 = cc.val := by omega
  unfold banded lin
  refine congrArg₂ (· + ·) ?_ (hB cc)
  refine (band_row X2 M x w hM hX R (⟨cc.val / 128, by omega⟩ : Fin 10) (⟨cc.val % 128, Nat.mod_lt _ (by norm_num)⟩ : Fin 128)).trans ?_
  refine Finset.sum_congr rfl (fun k _ => ?_)
  refine congrArg₂ (· * ·) (congrArg x (ix2_congr ?_ rfl)) (congrArg w (ix2_congr ?_ rfl))
  · show 128 * R.val + (128 * (cc.val / 128) + cc.val % 128) / 10 = 128 * R.val + cc.val / 10
    rw [hp]
  · show (128 * (cc.val / 128) + cc.val % 128) % 10 = cc.val % 10
    rw [hp]

include hM hX hB in
/-- THE LAW: the banded product read row-major as a [16, 655360] array is the specified result. -/
theorem banded_flat (i : SO.Idx) :
    banded X2 M B2 (⟨flat i / 1280, by have := flat_lt i; omega⟩ : Fin 8192) (⟨flat i % 1280, Nat.mod_lt _ (by norm_num)⟩ : Fin 1280)
      = G x w b i := by
  rw [banded_eq_lin X2 M B2 x w b hM hX hB]
  have hf := flat_lt i
  unfold G
  refine congrArg₂ (lin x w b) (Fin.ext ?_) (Fin.ext ?_)
  · show 128 * (flat i / 1280) + flat i % 1280 / 10 = flat i / 10
    omega
  · show flat i % 1280 % 10 = flat i % 10
    omega

end Law

end Cert.Spec

end
-- ==== Proof.Bridge.lean ====
/-
  The kernel's staged arrays satisfy the three entrywise descriptions the banded law asks for, so its result array is
  the specified function of the argument arrays.
-/
import proofs.«140140_g2000106001300788_pallasbulk_809_2_alg».proof.Proof.HostPoint
import proofs.«140140_g2000106001300788_pallasbulk_809_2_alg».proof.Proof.BandLaw

noncomputable section

namespace Cert.KernelIdeal.Bridge

open Cert.KernelIdeal Cert.KernelIdeal.Gen Cert.KernelIdeal.HostPoint Idealize.ShloMosaic Idealize.ShloMosaic.TcCoe Idealize.SL.Sem
open Idealize.ShloMosaic.ValueIdx

variable (m : (ℓ : Loc nD τ sig) → Buf (Elt Ideal) ℓ) (c : Dev nD)

/-- THE RESULT: the kernel's result array, entry by entry, is the specified function of the argument arrays. -/
theorem result_eq (i : S16x655360.Idx) :
    Cert.Spec.banded (V m c main_call0_v0) (V m c main_call0_v39) (V m c main_call0_v43)
        (⟨Cert.Spec.flat i / 1280, by have := Cert.Spec.flat_lt i; omega⟩ : Fin 8192)
        (⟨Cert.Spec.flat i % 1280, Nat.mod_lt _ (by norm_num)⟩ : Fin 1280)
      = Cert.Spec.G (m ((c.tc : Thread nD τ).loc main_arg0)) (m ((c.tc : Thread nD τ).loc main_arg1)) (m ((c.tc : Thread nD τ).loc main_arg2)) i := by
  rw [← V_main_arg0 m c, ← V_main_arg1 m c, ← V_main_arg2 m c]
  exact Cert.Spec.banded_flat (V m c main_call0_v0) (V m c main_call0_v39) (V m c main_call0_v43)
    (V m c main_arg0) (V m c main_arg1) (V m c main_arg2) (v39_at m c) (v0_at m c) (v43_at m c) i

end Cert.KernelIdeal.Bridge

end
-- ==== Proof.lean ====
/-
  The certificate of the banded linear layer against its row-tiled reference.

  Both programs compute y = x·wᵀ + b for x : [1048576, 10], w : [10, 10], b : [10] and return y read row-major as a
  [16, 655360] array. The reference multiplies row blocks of x by wᵀ. The kernel reads x as 8192 dense rows of 1280 lanes
  and computes each 128-lane output tile as a product of a 384-lane window of the dense row with a band matrix the host
  builds from w: the band matrix holds w(p % 10, q % 10) where input lane q and output lane p belong to the same row of
  x and zero elsewhere, so every 384-term product collapses to the ten-term product of the linear layer. The collapse
  needs no finiteness (a product with zero is zero on the extended reals, and finite sums may be re-indexed), so the
  precondition is never opened. The idealization rewrote nothing, so it preserves the kernel trivially; the three frames
  are the programs' generated frame proofs.
-/
import proofs.«140140_g2000106001300788_pallasbulk_809_2_alg».proof.Defs
import proofs.«140140_g2000106001300788_pallasbulk_809_2_alg».proof.Proof.Gen.Kernel
import proofs.«140140_g2000106001300788_pallasbulk_809_2_alg».proof.Proof.Gen.Kernel.Frame
import proofs.«140140_g2000106001300788_pallasbulk_809_2_alg».proof.Proof.Gen.KernelIdeal
import proofs.«140140_g2000106001300788_pallasbulk_809_2_alg».proof.Proof.Gen.KernelIdeal.Frame
import proofs.«140140_g2000106001300788_pallasbulk_809_2_alg».proof.Proof.Gen.ReferenceIdeal
import proofs.«140140_g2000106001300788_pallasbulk_809_2_alg».proof.Proof.Gen.ReferenceIdeal.Frame
import proofs.«140140_g2000106001300788_pallasbulk_809_2_alg».proof.Proof.Gen.Pre_finite_inputs
import proofs.«140140_g2000106001300788_pallasbulk_809_2_alg».proof.Proof.RefValue
import proofs.«140140_g2000106001300788_pallasbulk_809_2_alg».proof.Proof.KernelValue
import proofs.«140140_g2000106001300788_pallasbulk_809_2_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both idealized programs end with the result array at the specified function of the argument arrays: the kernel's
    banded product entry by entry is the linear layer, the reference's row-tiled product is it directly. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun r h c => ⟨(h c).1.trans ?_, (h c).2⟩)
      (Cert.KernelIdeal.KernelValue.run m ρ)
    funext i
    exact Cert.KernelIdeal.Bridge.result_eq m c i
  · refine (θ_run (Cert.ReferenceIdeal.defs (F := Ideal)) _ _).mono (fun r h c => ⟨(h c).1.trans ?_, (h c).2⟩)
      (Cert.ReferenceIdeal.RefValue.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
